-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x64 : Shape := ⟨3, ![2, 50000, 64]⟩
abbrev S2x1600000 : Shape := ⟨2, ![2, 1600000]⟩
abbrev S1600000 : Shape := ⟨1, ![1600000]⟩
abbrev S2x50000 : Shape := ⟨2, ![2, 50000]⟩
abbrev S64x64 : Shape := ⟨2, ![64, 64]⟩
abbrev S64 : Shape := ⟨1, ![64]⟩
abbrev S_ : Shape := ⟨0, ![]⟩

class Facts : Prop where
  bcast_S_S2x50000x64 : S_.BroadcastsInDim S2x50000x64 (![] : Fin 0 → Fin S2x50000x64.rank)
  reducesTo_S2x50000x64_S_d0_1_2 : S2x50000x64.ReducesTo [0, 1, 2] S_
  h_S_ : 0 < S_.numel
  bcast_S_S1600000 : S_.BroadcastsInDim S1600000 (![] : Fin 0 → Fin S1600000.rank)
  reducesTo_S1600000_S_d0 : S1600000.ReducesTo [0] S_
  bcast_S_S2x50000 : S_.BroadcastsInDim S2x50000 (![] : Fin 0 → Fin S2x50000.rank)
  reducesTo_S2x50000_S_d0_1 : S2x50000.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S2x50000x64 .f32) (main_arg1 : IVec S2x1600000 32) (main_arg2 : FVec F S1600000 .f32) (main_arg3 : FVec F S2x50000 .f32) (main_arg4 : FVec F S64x64 .f32) (main_arg5 : FVec F S64x64 .f32) (main_arg6 : FVec F S64 .f32) : IVec S_ 1 :=
  let main_v0 : FVec F S2x50000x64 .f32 := Host.absf main_arg0
  let main_cst : FVec F S_ .f32 := constant S_ .f32 0x7F800000#32
  let main_v1 : FVec F S2x50000x64 .f32 := broadcastInDim S2x50000x64 ![] bcast_S_S2x50000x64 main_cst
  let main_v2 : IVec S2x50000x64 1 := cmpf .olt main_v0 main_v1
  let main_c : IVec S_ 1 := constantI S_ 1 1#1
  let main_v3 : IVec S_ 1 := (fun x v => Host.reduce IntOp.andi x v reducesTo_S2x50000x64_S_d0_1_2 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x50000 .f32 := Host.absf main_arg3
  let main_cst_2 : FVec F S_ .f32 := constant S_ .f32 0x7F800000#32
  let main_v10 : FVec F S2x50000 .f32 := broadcastInDim S2x50000 ![] bcast_S_S2x50000 main_cst_2
  let main_v11 : IVec S2x50000 1 := cmpf .olt main_v9 main_v10
  let main_c_3 : IVec S_ 1 := constantI S_ 1 1#1
  let main_v12 : IVec S_ 1 := (fun x v => Host.reduce IntOp.andi x v reducesTo_S2x50000_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S2x50000x64 : Shape := ⟨3, ![2, 50000, 64]⟩
abbrev S2x1600000 : Shape := ⟨2, ![2, 1600000]⟩
abbrev S1600000 : Shape := ⟨1, ![1600000]⟩
abbrev S2x50000 : Shape := ⟨2, ![2, 50000]⟩
abbrev S64x64 : Shape := ⟨2, ![64, 64]⟩
abbrev S64 : Shape := ⟨1, ![64]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1600000x1 : Shape := ⟨2, ![1600000, 1]⟩
abbrev S2x1650000 : Shape := ⟨2, ![2, 1650000]⟩
abbrev S1x1650000 : Shape := ⟨2, ![1, 1650000]⟩
abbrev S4x1650000 : Shape := ⟨2, ![4, 1650000]⟩
abbrev S50000x2x64 : Shape := ⟨3, ![50000, 2, 64]⟩
abbrev S50000x128 : Shape := ⟨2, ![50000, 128]⟩
abbrev S1650000x128 : Shape := ⟨2, ![1650000, 128]⟩
abbrev S1650688x128 : Shape := ⟨2, ![1650688, 128]⟩
abbrev S4x1650688 : Shape := ⟨2, ![4, 1650688]⟩
abbrev S2x2 : Shape := ⟨2, ![2, 2]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S4096x128 : Shape := ⟨2, ![4096, 128]⟩
abbrev S4x4096 : Shape := ⟨2, ![4, 4096]⟩
abbrev S1x4096 : Shape := ⟨2, ![1, 4096]⟩
abbrev S4096 : Shape := ⟨1, ![4096]⟩
abbrev S4096x1 : Shape := ⟨2, ![4096, 1]⟩
abbrev S1650000x2x64 : Shape := ⟨3, ![1650000, 2, 64]⟩
abbrev S2x1650000x64 : Shape := ⟨3, ![2, 1650000, 64]⟩
abbrev S1x1x64 : Shape := ⟨3, ![1, 1, 64]⟩

abbrev nBuf : Space → Nat
  | .hbm => 171
  | .vmem => 8
  | .smem => 0
  | _ => 0

abbrev hbmTy0_0 (i : Nat) : BufTy := match i % 128 with
  | 0 => ⟨S2x50000x64, .f32⟩
  | 1 => ⟨S2x1600000, .i32⟩
  | 2 => ⟨S1600000, .f32⟩
  | 3 => ⟨S2x50000, .f32⟩
  | 4 => ⟨S64x64, .f32⟩
  | 5 => ⟨S64x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S50000, .i32⟩
  | 12 => ⟨S1650000, .i32⟩
  | 13 => ⟨S1650000, .i32⟩
  | 14 => ⟨S_, .f32⟩
  | 15 => ⟨S50000, .f32⟩
  | 16 => ⟨S_, .i32⟩
  | 17 => ⟨S1650000, .i32⟩
  | 18 => ⟨S1650000, .i1⟩
  | 19 => ⟨S_, .i32⟩
  | 20 => ⟨S1650000, .i32⟩
  | 21 => ⟨S1650000, .i32⟩
  | 22 => ⟨S1650000, .i32⟩
  | 23 => ⟨S1650000x1, .i32⟩
  | 24 => ⟨S_, .f32⟩
  | 25 => ⟨S1650000, .f32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000, .f32⟩
  | 56 => ⟨S1650000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S2x1600000, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S2x1600000, .f32⟩
  | 75 => ⟨S2x1600000, .f32⟩
  | 76 => ⟨S_, .f32⟩
  | 77 => ⟨S2x1600000, .f32⟩
  | 78 => ⟨S2x1600000, .f32⟩
  | 79 => ⟨S2x1600000, .f32⟩
  | 80 => ⟨S_, .f32⟩
  | 81 => ⟨S2x1600000, .f32⟩
  | 82 => ⟨S2x1600000, .f32⟩
  | 83 => ⟨S_, .f32⟩
  | 84 => ⟨S2x1600000, .f32⟩
  | 85 => ⟨S2x1600000, .f32⟩
  | 86 => ⟨S1x1600000, .f32⟩
  | 87 => ⟨S2x1600000, .f32⟩
  | 88 => ⟨S2x1600000, .f32⟩
  | 89 => ⟨S_, .f32⟩
  | 90 => ⟨S2x1600000, .f32⟩
  | 91 => ⟨S2x1600000, .f32⟩
  | 92 => ⟨S_, .f32⟩
  | 93 => ⟨S1x1600000, .f32⟩
  | 94 => ⟨S1x1600000, .f32⟩
  | 95 => ⟨S2x1600000, .f32⟩
  | 96 => ⟨S2x1600000, .f32⟩
  | 97 => ⟨S2x1600000, .f32⟩
  | 98 => ⟨S_, .f32⟩
  | 99 => ⟨S2x50000, .f32⟩
  | 100 => ⟨S2x1650000, .f32⟩
  | 101 => ⟨S1x1650000, .f32⟩
  | 102 => ⟨S_, .f32⟩
  | 103 => ⟨S2x1650000, .f32⟩
  | 104 => ⟨S2x1650000, .f32⟩
  | 105 => ⟨S2x1650000, .f32⟩
  | 106 => ⟨S2x1650000, .f32⟩
  | 107 => ⟨S1x1650000, .f32⟩
  | 108 => ⟨S2x1650000, .f32⟩
  | 109 => ⟨S2x1650000, .f32⟩
  | 110 => ⟨S4x1650000, .f32⟩
  | 111 => ⟨S50000x2x64, .f32⟩
  | 112 => ⟨S50000x128, .f32⟩
  | 113 => ⟨S50000x128, .bf16⟩
  | 114 => ⟨S_, .i32⟩
  | 115 => ⟨S1650000, .i32⟩
  | 116 => ⟨S1650000, .i1⟩
  | 117 => ⟨S_, .i32⟩
  | 118 => ⟨S1650000, .i32⟩
  | 119 => ⟨S1650000, .i32⟩
  | 120 => ⟨S1650000, .i32⟩
  | 121 => ⟨S1650000x1, .i32⟩
  | 122 => ⟨S1650000x128, .bf16⟩
  | 123 => ⟨S_, .i32⟩
  | 124 => ⟨S_, .bf16⟩
  | 125 => ⟨S1650688x128, .bf16⟩
  | 126 => ⟨S_, .i32⟩
  | 127 => ⟨S_, .f32⟩
  | _ => ⟨S2x50000x64, .f32⟩

abbrev hbmTy0_1 (i : Nat) : BufTy := match i % 128 with
  | 0 => ⟨S4x1650688, .f32⟩
  | 1 => ⟨S2x2, .i32⟩
  | 2 => ⟨S2x2, .i32⟩
  | 3 => ⟨S_, .i32⟩
  | 4 => ⟨S2x2, .i32⟩
  | 5 => ⟨S2x2, .i32⟩
  | 6 => ⟨S2x2, .i1⟩
  | 7 => ⟨S2x2, .f32⟩
  | 8 => ⟨S64x64, .f32⟩
  | 9 => ⟨S2x1x2x1, .f32⟩
  | 10 => ⟨S1x64x1x64, .f32⟩
  | 11 => ⟨S2x64x2x64, .f32⟩
  | 12 => ⟨S2x64x2x64, .f32⟩
  | 13 => ⟨S2x64x2x64, .f32⟩
  | 14 => ⟨S128x128, .f32⟩
  | 15 => ⟨S128x128, .bf16⟩
  | 16 => ⟨S64x64, .f32⟩
  | 17 => ⟨S2x1x2x1, .f32⟩
  | 18 => ⟨S1x64x1x64, .f32⟩
  | 19 => ⟨S2x64x2x64, .f32⟩
  | 20 => ⟨S2x64x2x64, .f32⟩
  | 21 => ⟨S2x64x2x64, .f32⟩
  | 22 => ⟨S128x128, .f32⟩
  | 23 => ⟨S128x128, .bf16⟩
  | 24 => ⟨S1650688x128, .bf16⟩
  | 25 => ⟨S1650000x128, .bf16⟩
  | 26 => ⟨S1650000x2x64, .bf16⟩
  | 27 => ⟨S2x1650000x64, .bf16⟩
  | 28 => ⟨S_, .f32⟩
  | 29 => ⟨S2x50000x64, .f32⟩
  | 30 => ⟨S2x1650000x64, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S2x50000x64, .f32⟩
  | 40 => ⟨S1x1x64, .f32⟩
  | 41 => ⟨S2x50000x64, .f32⟩
  | 42 => ⟨S2x50000x64, .f32⟩
  | _ => ⟨S2x50000x64, .f32⟩

abbrev hbmTy (i : Nat) : BufTy := match i / 128 with
  | 0 => hbmTy0_0 i
  | 1 => hbmTy0_1 i
  | _ => ⟨S2x50000x64, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S4x4096, .f32⟩
  | .local _ .vmem, ⟨3, _⟩ => ⟨S4x4096, .f32⟩
  | .local _ .vmem, ⟨4, _⟩ => ⟨S128x128, .bf16⟩
  | .local _ .vmem, ⟨5, _⟩ => ⟨S128x128, .bf16⟩
  | .local _ .vmem, ⟨6, _⟩ => ⟨S4096x128, .bf16⟩
  | .local _ .vmem, ⟨7, _⟩ => ⟨S4096x128, .bf16⟩
  | _, _ => ⟨S2x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_20 : Ref sig .tc := ⟨.hbm, 114, rfl⟩
abbrev main_v83 : Ref sig .tc := ⟨.hbm, 115, rfl⟩
abbrev main_v84 : Ref sig .tc := ⟨.hbm, 116, rfl⟩
abbrev main_c_21 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_22 : Ref sig .tc := ⟨.hbm, 123, rfl⟩
abbrev main_call1_v0 : Ref sig .tc := ⟨.hbm, 124, rfl⟩
abbrev main_v90 : Ref sig .tc := ⟨.hbm, 125, rfl⟩
abbrev main_c_23 : Ref sig .tc := ⟨.hbm, 126, rfl⟩
abbrev main_call2_v0 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_24 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_25 : Ref sig .tc := ⟨.hbm, 156, rfl⟩
abbrev main_v108 : Ref sig .tc := ⟨.hbm, 157, rfl⟩
abbrev main_v109 : Ref sig .tc := ⟨.hbm, 158, rfl⟩
abbrev main_c_26 : Ref sig .tc := ⟨.hbm, 159, rfl⟩
abbrev main_v110 : Ref sig .tc := ⟨.hbm, 160, rfl⟩
abbrev main_v111 : Ref sig .tc := ⟨.hbm, 161, rfl⟩
abbrev main_c_27 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![403], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S2x1600000 : S_.BroadcastsInDim S2x1600000 (![] : Fin 0 → Fin S2x1600000.rank)
  bcast_S1600000_S1x1600000_1 : S1600000.BroadcastsInDim S1x1600000 (![1] : Fin 1 → Fin S1x1600000.rank)
  bcast_S1x1600000_S2x1600000_0_1 : S1x1600000.BroadcastsInDim S2x1600000 (![0, 1] : Fin 2 → Fin S2x1600000.rank)
  bcast_S_S1x1600000 : S_.BroadcastsInDim S1x1600000 (![] : Fin 0 → Fin S1x1600000.rank)
  bcast_S_S2x50000 : S_.BroadcastsInDim S2x50000 (![] : Fin 0 → Fin S2x50000.rank)
  concatenates_S2x1600000_S2x50000_S2x1650000_d1 : Shape.Concatenates [S2x1600000, S2x50000] S2x1650000 1
  bcast_S1650000_S1x1650000_1 : S1650000.BroadcastsInDim S1x1650000 (![1] : Fin 1 → Fin S1x1650000.rank)
  bcast_S_S2x1650000 : S_.BroadcastsInDim S2x1650000 (![] : Fin 0 → Fin S2x1650000.rank)
  bcast_S1x1650000_S2x1650000_0_1 : S1x1650000.BroadcastsInDim S2x1650000 (![0, 1] : Fin 2 → Fin S2x1650000.rank)
  concatenates_S2x1650000_S2x1650000_S4x1650000_d0 : Shape.Concatenates [S2x1650000, S2x1650000] S4x1650000 0
  transposes_S2x50000x64_S50000x2x64_1_0_2 : S2x50000x64.Transposes [1, 0, 2] S50000x2x64
  shapeCasts_S50000x2x64_S50000x128 : S50000x2x64.ShapeCasts S50000x128
  bitsLt_bf16_f32 : FTy.bits .bf16 < FTy.bits .f32
  pads_S1650000x128_S1650688x128_06880_000 : S1650000x128.Pads (![0, 0] : Fin 2 → Nat) ![688, 0] ![0, 0] S1650688x128
  h_S_ : 0 < S_.numel
  pads_S4x1650000_S4x1650688_000_06880 : S4x1650000.Pads (![0, 0] : Fin 2 → Nat) ![0, 688] ![0, 0] S4x1650688
  bcast_S_S2x2 : S_.BroadcastsInDim S2x2 (![] : Fin 0 → Fin S2x2.rank)
  transposes_S64x64_S64x64_1_0 : S64x64.Transposes [1, 0] S64x64
  bcast_S2x2_S2x1x2x1_0_2 : S2x2.BroadcastsInDim S2x1x2x1 (![0, 2] : Fin 2 → Fin S2x1x2x1.rank)
  bcast_S64x64_S1x64x1x64_1_3 : S64x64.BroadcastsInDim S1x64x1x64 (![1, 3] : Fin 2 → Fin S1x64x1x64.rank)
  bcast_S2x1x2x1_S2x64x2x64_0_1_2_3 : S2x1x2x1.BroadcastsInDim S2x64x2x64 (![0, 1, 2, 3] : Fin 4 → Fin S2x64x2x64.rank)
  bcast_S1x64x1x64_S2x64x2x64_0_1_2_3 : S1x64x1x64.BroadcastsInDim S2x64x2x64 (![0, 1, 2, 3] : Fin 4 → Fin S2x64x2x64.rank)
  shapeCasts_S2x64x2x64_S128x128 : S2x64x2x64.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4x4096_S1x4096_0_0 : ∀ a, (![0, 0] : Fin 2 → Nat) a + S1x4096.size a ≤ S4x4096.size a
  h_S1x4096 : 0 < S1x4096.numel
  shapeCasts_S1x4096_S4096 : S1x4096.ShapeCasts S4096
  shapeCasts_S4096_S4096x1 : S4096.ShapeCasts S4096x1
  inb_S4x4096_S1x4096_1_0 : ∀ a, (![1, 0] : Fin 2 → Nat) a + S1x4096.size a ≤ S4x4096.size a
  inb_S4x4096_S1x4096_2_0 : ∀ a, (![2, 0] : Fin 2 → Nat) a + S1x4096.size a ≤ S4x4096.size a
  inb_S4x4096_S1x4096_3_0 : ∀ a, (![3, 0] : Fin 2 → Nat) a + S1x4096.size a ≤ S4x4096.size a
  iota_S4096x128_d1_w32 : S4096x128.Iotas .tc 32 [1]
  shapeCasts_S4096x1_S4096x1 : S4096x1.ShapeCasts S4096x1
  broadcasts_S4096x1_S4096x128 : S4096x1.Broadcasts S4096x128
  packedbf16_S4096x128_S4096x128_0_0 : (Rect.unit (s := S4096x128) ![0, 0] S4096x128.size inb_S4096x128_S4096x128_0_0).PackedRows (EltTy.packing .bf16)
  slices_S1650688x128_S1650000x128_0_0 : S1650688x128.Slices ![0, 0] S1650000x128
  shapeCasts_S1650000x128_S1650000x2x64 : S1650000x128.ShapeCasts S1650000x2x64
  transposes_S1650000x2x64_S2x1650000x64_1_0_2 : S1650000x2x64.Transposes [1, 0, 2] S2x1650000x64
  bcast_S_S2x50000x64 : S_.BroadcastsInDim S2x50000x64 (![] : Fin 0 → Fin S2x50000x64.rank)
  bcast_S64_S1x1x64_2 : S64.BroadcastsInDim S1x1x64 (![2] : Fin 1 → Fin S1x1x64.rank)
  bcast_S1x1x64_S2x50000x64_0_1_2 : S1x1x64.BroadcastsInDim S2x50000x64 (![0, 1, 2] : Fin 3 → Fin S2x50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S2x50000_S1600000x1_S2x1600000_0_1_n_n_1_1_21_wf : GatherDims.WF S2x50000 S1600000x1 S2x1600000 [0] [1] [] [1] [] 1 ![2, 1]
  gather_S50000x128_S1650000x1_S1650000x128_1_0_n_n_0_1_1128_wf : GatherDims.WF S50000x128 S1650000x1 S1650000x128 [1] [0] [] [0] [] 1 ![1, 128]
  dot_S4096x128_S128x128_S4096x128_1_0_0_1_n_n_wf : DotDims.WF S4096x128 S128x128 S4096x128 [1] [0] [0] [1] [] []
  scatter_S2x50000x64_S1650000x1_S2x1650000x64_02_1_1_1_wf : ScatterDims.WF S2x50000x64 S1650000x1 S2x1650000x64 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1650688x128.size a
  hwx0_0 : ∀ i : grid0.Coords, EltTy.bits .bf16 = 32 ∨ (Rect.block (s := S1650688x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4096.size a ≤ S4x1650688.size a
  hwx0_1 : ∀ i : grid0.Coords, EltTy.bits .f32 = 32 ∨ (Rect.block (s := S4x1650688) S4x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S1650688x128.size a
  hwx0_4 : ∀ i : grid0.Coords, EltTy.bits .bf16 = 32 ∨ (Rect.block (s := S1650688x128) S4096x128.size (cc0_transform_4 i) (hinb0_4 i)).WholeWords (EltTy.packing .bf16)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S2x50000_S1600000x1_S2x1600000_0_1_n_n_1_1_21 : GatherDims S2x50000 S1600000x1 S2x1600000 where
  offsetDims := [0]
  collapsedSliceDims := [1]
  operandBatchingDims := []
  startIndicesBatchingDims := []
  startIndexMap := [1]
  indexVectorDim := 1
  sliceSizes := ![2, 1]
  wf := gather_S2x50000_S1600000x1_S2x1600000_0_1_n_n_1_1_21_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S2x50000x64_S1650000x1_S2x1650000x64_02_1_1_1 : ScatterDims S2x50000x64 S1650000x1 S2x1650000x64 where
  updateWindowDims := [0, 2]
  insertedWindowDims := [1]
  scatterDimsToOperandDims := [1]
  indexVectorDim := 1
  wf := scatter_S2x50000x64_S1650000x1_S2x1650000x64_02_1_1_1_wf

abbrev win0_0 : Pipeline.Window sig grid0 :=
  Pipeline.Window.ofSpec (Memref.whole main_v90) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v91) S4x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v100) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v103) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v104) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x50000x64 : Shape := ⟨3, ![2, 50000, 64]⟩
abbrev S2x1600000 : Shape := ⟨2, ![2, 1600000]⟩
abbrev S1600000 : Shape := ⟨1, ![1600000]⟩
abbrev S2x50000 : Shape := ⟨2, ![2, 50000]⟩
abbrev S64x64 : Shape := ⟨2, ![64, 64]⟩
abbrev S64 : Shape := ⟨1, ![64]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1600000x1 : Shape := ⟨2, ![1600000, 1]⟩
abbrev S2x1650000 : Shape := ⟨2, ![2, 1650000]⟩
abbrev S1x1650000x1 : Shape := ⟨3, ![1, 1650000, 1]⟩
abbrev S2x1650000x1 : Shape := ⟨3, ![2, 1650000, 1]⟩
abbrev S2x1650000x64 : Shape := ⟨3, ![2, 1650000, 64]⟩
abbrev S1x1x64 : Shape := ⟨3, ![1, 1, 64]⟩

abbrev nBuf : Space → Nat
  | .hbm => 148
  | .vmem => 0
  | .smem => 0
  | _ => 0

abbrev hbmTy0_0 (i : Nat) : BufTy := match i % 128 with
  | 0 => ⟨S2x50000x64, .f32⟩
  | 1 => ⟨S2x1600000, .i32⟩
  | 2 => ⟨S1600000, .f32⟩
  | 3 => ⟨S2x50000, .f32⟩
  | 4 => ⟨S64x64, .f32⟩
  | 5 => ⟨S64x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S50000, .i32⟩
  | 12 => ⟨S1650000, .i32⟩
  | 13 => ⟨S1650000, .i32⟩
  | 14 => ⟨S_, .f32⟩
  | 15 => ⟨S50000, .f32⟩
  | 16 => ⟨S_, .i32⟩
  | 17 => ⟨S1650000, .i32⟩
  | 18 => ⟨S1650000, .i1⟩
  | 19 => ⟨S_, .i32⟩
  | 20 => ⟨S1650000, .i32⟩
  | 21 => ⟨S1650000, .i32⟩
  | 22 => ⟨S1650000, .i32⟩
  | 23 => ⟨S1650000x1, .i32⟩
  | 24 => ⟨S_, .f32⟩
  | 25 => ⟨S1650000, .f32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000, .f32⟩
  | 56 => ⟨S1650000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S2x1600000, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S2x1600000, .f32⟩
  | 75 => ⟨S2x1600000, .f32⟩
  | 76 => ⟨S_, .f32⟩
  | 77 => ⟨S2x1600000, .f32⟩
  | 78 => ⟨S2x1600000, .f32⟩
  | 79 => ⟨S2x1600000, .f32⟩
  | 80 => ⟨S_, .f32⟩
  | 81 => ⟨S2x1600000, .f32⟩
  | 82 => ⟨S2x1600000, .f32⟩
  | 83 => ⟨S_, .f32⟩
  | 84 => ⟨S2x1600000, .f32⟩
  | 85 => ⟨S2x1600000, .f32⟩
  | 86 => ⟨S1x1600000, .f32⟩
  | 87 => ⟨S2x1600000, .f32⟩
  | 88 => ⟨S2x1600000, .f32⟩
  | 89 => ⟨S_, .f32⟩
  | 90 => ⟨S2x1600000, .f32⟩
  | 91 => ⟨S2x1600000, .f32⟩
  | 92 => ⟨S_, .f32⟩
  | 93 => ⟨S1x1600000, .f32⟩
  | 94 => ⟨S1x1600000, .f32⟩
  | 95 => ⟨S2x1600000, .f32⟩
  | 96 => ⟨S2x1600000, .f32⟩
  | 97 => ⟨S2x1600000, .f32⟩
  | 98 => ⟨S_, .f32⟩
  | 99 => ⟨S2x50000, .f32⟩
  | 100 => ⟨S2x1650000, .f32⟩
  | 101 => ⟨S2x50000x64, .f32⟩
  | 102 => ⟨S2x50000x64, .f32⟩
  | 103 => ⟨S1x1650000x1, .f32⟩
  | 104 => ⟨S_, .f32⟩
  | 105 => ⟨S2x1650000, .f32⟩
  | 106 => ⟨S2x1650000, .f32⟩
  | 107 => ⟨S2x1650000x1, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S2x1650000x64, .f32⟩
  | 117 => ⟨S2x1650000x64, .f32⟩
  | 118 => ⟨S2x1650000x64, .f32⟩
  | 119 => ⟨S2x1650000x1, .f32⟩
  | 120 => ⟨S_, .i32⟩
  | 121 => ⟨S1650000, .i32⟩
  | 122 => ⟨S1650000, .i1⟩
  | 123 => ⟨S_, .i32⟩
  | 124 => ⟨S1650000, .i32⟩
  | 125 => ⟨S1650000, .i32⟩
  | 126 => ⟨S1650000, .i32⟩
  | 127 => ⟨S1650000x1, .i32⟩
  | _ => ⟨S2x50000x64, .f32⟩

abbrev hbmTy0_1 (i : Nat) : BufTy := match i % 128 with
  | 0 => ⟨S2x1650000x64, .f32⟩
  | 1 => ⟨S2x1650000x64, .f32⟩
  | 2 => ⟨S2x1650000x64, .f32⟩
  | 3 => ⟨S2x1650000x64, .f32⟩
  | 4 => ⟨S2x1650000x64, .f32⟩
  | 5 => ⟨S2x1650000x64, .f32⟩
  | 6 => ⟨S_, .f32⟩
  | 7 => ⟨S2x50000x64, .f32⟩
  | 8 => ⟨S_, .i32⟩
  | 9 => ⟨S1650000, .i32⟩
  | 10 => ⟨S1650000, .i1⟩
  | 11 => ⟨S_, .i32⟩
  | 12 => ⟨S1650000, .i32⟩
  | 13 => ⟨S1650000, .i32⟩
  | 14 => ⟨S1650000, .i32⟩
  | 15 => ⟨S1650000x1, .i32⟩
  | 16 => ⟨S2x50000x64, .f32⟩
  | 17 => ⟨S1x1x64, .f32⟩
  | 18 => ⟨S2x50000x64, .f32⟩
  | 19 => ⟨S2x50000x64, .f32⟩
  | _ => ⟨S2x50000x64, .f32⟩

abbrev hbmTy (i : Nat) : BufTy := match i / 128 with
  | 0 => hbmTy0_0 i
  | 1 => hbmTy0_1 i
  | _ => ⟨S2x50000x64, .f32⟩

abbrev bufTy : (tb : Table) → Fin (tcTables nBuf tb) → BufTy
  | .hbm, ⟨i, _⟩ => hbmTy i
  | _, _ => ⟨S2x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_20 : Ref sig .tc := ⟨.hbm, 108, rfl⟩
abbrev main_v77 : Ref sig .tc := ⟨.hbm, 109, rfl⟩
abbrev main_v78 : Ref sig .tc := ⟨.hbm, 110, rfl⟩
abbrev main_c_21 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_22 : Ref sig .tc := ⟨.hbm, 120, rfl⟩
abbrev main_v87 : Ref sig .tc := ⟨.hbm, 121, rfl⟩
abbrev main_v88 : Ref sig .tc := ⟨.hbm, 122, rfl⟩
abbrev main_c_23 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_24 : Ref sig .tc := ⟨.hbm, 134, rfl⟩
abbrev main_v99 : Ref sig .tc := ⟨.hbm, 135, rfl⟩
abbrev main_c_25 : Ref sig .tc := ⟨.hbm, 136, rfl⟩
abbrev main_v100 : Ref sig .tc := ⟨.hbm, 137, rfl⟩
abbrev main_v101 : Ref sig .tc := ⟨.hbm, 138, rfl⟩
abbrev main_c_26 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S2x1600000 : S_.BroadcastsInDim S2x1600000 (![] : Fin 0 → Fin S2x1600000.rank)
  bcast_S1600000_S1x1600000_1 : S1600000.BroadcastsInDim S1x1600000 (![1] : Fin 1 → Fin S1x1600000.rank)
  bcast_S1x1600000_S2x1600000_0_1 : S1x1600000.BroadcastsInDim S2x1600000 (![0, 1] : Fin 2 → Fin S2x1600000.rank)
  bcast_S_S1x1600000 : S_.BroadcastsInDim S1x1600000 (![] : Fin 0 → Fin S1x1600000.rank)
  bcast_S_S2x50000 : S_.BroadcastsInDim S2x50000 (![] : Fin 0 → Fin S2x50000.rank)
  concatenates_S2x1600000_S2x50000_S2x1650000_d1 : Shape.Concatenates [S2x1600000, S2x50000] S2x1650000 1
  bcast_S1650000_S1x1650000x1_1 : S1650000.BroadcastsInDim S1x1650000x1 (![1] : Fin 1 → Fin S1x1650000x1.rank)
  bcast_S_S2x1650000 : S_.BroadcastsInDim S2x1650000 (![] : Fin 0 → Fin S2x1650000.rank)
  bcast_S2x1650000_S2x1650000x1_0_1 : S2x1650000.BroadcastsInDim S2x1650000x1 (![0, 1] : Fin 2 → Fin S2x1650000x1.rank)
  bcast_S2x1650000x1_S2x1650000x64_0_1_2 : S2x1650000x1.BroadcastsInDim S2x1650000x64 (![0, 1, 2] : Fin 3 → Fin S2x1650000x64.rank)
  bcast_S1x1650000x1_S2x1650000x64_0_1_2 : S1x1650000x1.BroadcastsInDim S2x1650000x64 (![0, 1, 2] : Fin 3 → Fin S2x1650000x64.rank)
  bcast_S_S2x50000x64 : S_.BroadcastsInDim S2x50000x64 (![] : Fin 0 → Fin S2x50000x64.rank)
  bcast_S64_S1x1x64_2 : S64.BroadcastsInDim S1x1x64 (![2] : Fin 1 → Fin S1x1x64.rank)
  bcast_S1x1x64_S2x50000x64_0_1_2 : S1x1x64.BroadcastsInDim S2x50000x64 (![0, 1, 2] : Fin 3 → Fin S2x50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S2x50000_S1600000x1_S2x1600000_0_1_n_n_1_1_21_wf : GatherDims.WF S2x50000 S1600000x1 S2x1600000 [0] [1] [] [1] [] 1 ![2, 1]
  dot_S2x50000x64_S64x64_S2x50000x64_2_1_01_0_n_n_wf : DotDims.WF S2x50000x64 S64x64 S2x50000x64 [2] [1] [0, 1] [0] [] []
  gather_S2x50000x64_S1650000x1_S2x1650000x64_02_1_n_n_1_1_2164_wf : GatherDims.WF S2x50000x64 S1650000x1 S2x1650000x64 [0, 2] [1] [] [1] [] 1 ![2, 1, 64]
  scatter_S2x50000x64_S1650000x1_S2x1650000x64_02_1_1_1_wf : ScatterDims.WF S2x50000x64 S1650000x1 S2x1650000x64 [0, 2] [1] [1] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S2x50000_S1600000x1_S2x1600000_0_1_n_n_1_1_21 : GatherDims S2x50000 S1600000x1 S2x1600000 where
  offsetDims := [0]
  collapsedSliceDims := [1]
  operandBatchingDims := []
  startIndicesBatchingDims := []
  startIndexMap := [1]
  indexVectorDim := 1
  sliceSizes := ![2, 1]
  wf := gather_S2x50000_S1600000x1_S2x1600000_0_1_n_n_1_1_21_wf
def dot_S2x50000x64_S64x64_S2x50000x64_2_1_01_0_n_n : DotDims S2x50000x64 S64x64 S2x50000x64 where
  lhsContracting := [2]
  rhsContracting := [1]
  lhsNonContracting := [0, 1]
  rhsNonContracting := [0]
  lhsBatch := []
  rhsBatch := []
  wf := dot_S2x50000x64_S64x64_S2x50000x64_2_1_01_0_n_n_wf
def gather_S2x50000x64_S1650000x1_S2x1650000x64_02_1_n_n_1_1_2164 : GatherDims S2x50000x64 S1650000x1 S2x1650000x64 where
  offsetDims := [0, 2]
  collapsedSliceDims := [1]
  operandBatchingDims := []
  startIndicesBatchingDims := []
  startIndexMap := [1]
  indexVectorDim := 1
  sliceSizes := ![2, 1, 64]
  wf := gather_S2x50000x64_S1650000x1_S2x1650000x64_02_1_n_n_1_1_2164_wf
def scatter_S2x50000x64_S1650000x1_S2x1650000x64_02_1_1_1 : ScatterDims S2x50000x64 S1650000x1 S2x1650000x64 where
  updateWindowDims := [0, 2]
  insertedWindowDims := [1]
  scatterDimsToOperandDims := [1]
  indexVectorDim := 1
  wf := scatter_S2x50000x64_S1650000x1_S2x1650000x64_02_1_1_1_wf

class Facts : Prop extends Facts₀ where

variable [Facts]
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.KernelPoint.lean ====
/-
  What the edge kernel's body stores, read at one entry.

  At a grid point the body holds a block of 4096 edges: their packed source features xb [4096, 128] (lane 64·b + i is
  feature i of batch b), four coefficient rows ab [4, 4096] (rows a₀, a₁, b₀, b₁), and the two 128 × 128 weight matrices.
  Entry (r, l) of the stored block is
        a_{[l ≥ 64]}(r) · Σ_k xb(r, k) · wc(k, l)  +  b_{[l ≥ 64]}(r) · Σ_k xb(r, k) · wd(k, l):
  the two products into a zero accumulator are plain sums on the extended reals, a coefficient row recast as a column and
  spread over the lanes reads its entry r, the lane test  iota < 64  picks the batch, and the final change of float
  format is the identity.
-/
import proofs.«161792_j28492813041739_2_alg».proof.Proof.Gen.KernelIdeal.Skeleton
import proofs.«161792_j28492813041739_2_alg».proof.Proof.LibKeepdims
import proofs.«161792_j28492813041739_2_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.Point

open Idealize.ShloMosaic Idealize.ShloMosaic.ValueIdx Cert.KernelIdeal Cert.KernelIdeal.Facts₀ Cert.KernelIdeal.Facts

/-- The lane test: 1 on the lanes of batch 0 (lane < 64), 0 on those of batch 1. -/
abbrev laneMask : IVec S4096x128 1 :=
  cmpi .slt (iota .tc S4096x128 32 [1] iota_S4096x128_d1_w32) (broadcast S4096x128 64#32)

/-- A [1, 4096] coefficient row recast as a [4096, 1] column and spread over the 128 lanes. -/
abbrev col (v : Vec Ideal S1x4096 .f32) : FVec Ideal S4096x128 .f32 :=
  broadcastTo S4096x128
    (shapeCast S4096x1 (shapeCast S4096x1 (shapeCast S4096 v shapeCasts_S1x4096_S4096) shapeCasts_S4096_S4096x1)
      shapeCasts_S4096x1_S4096x1) broadcasts_S4096x1_S4096x128

/-- The block of features times a weight matrix, accumulated from zero. -/
abbrev mm (xb : Vec Ideal S4096x128 .bf16) (w : Vec Ideal S128x128 .bf16) : FVec Ideal S4096x128 .f32 :=
  matmul dot_S4096x128_S128x128_S4096x128_1_0_0_1_n_n none
    (shapeCast S4096x128 xb shapeCasts_S4096x128_S4096x128 : FVec Ideal S4096x128 .bf16)
    (shapeCast S128x128 w shapeCasts_S128x128_S128x128 : FVec Ideal S128x128 .bf16) (constant S4096x128 .f32 0x00000000#32)

theorem lane_lt : ∀ l : Fin 128, IntOp.cmpi .slt (BitVec.ofNat 32 l.val) 64#32 = if l.val < 64 then 1#1 else 0#1 := by
  decide +kernel

theorem laneMask_apply (r : Fin 4096) (l : Fin 128) : laneMask (ix2 r l) = if l.val < 64 then 1#1 else 0#1 := by
  show IntOp.cmpi .slt (iota .tc S4096x128 32 [1] iota_S4096x128_d1_w32 (ix2 r l)) 64#32 = _
  rw [iota_single_apply]
  exact lane_lt l

theorem col_apply (v : Vec Ideal S1x4096 .f32) (r : Fin 4096) (l : Fin 128) : col v (ix2 r l) = v (ix2 (0 : Fin 1) r) := by
  unfold col
  rw [Cert.LibKeepdims.broadcastTo_a1_ab_apply, shapeCast_self, Cert.LibKeepdims.shapeCast_a_a1_apply, shapeCast_1a_a_apply]

theorem mm_apply (xb : Vec Ideal S4096x128 .bf16) (w : Vec Ideal S128x128 .bf16) (r : Fin 4096) (l : Fin 128) :
    mm xb w (ix2 r l) = ∑ k : Fin 128, xb (ix2 r k) * w (ix2 k l) := by
  unfold mm
  rw [shapeCast_self, shapeCast_self]
  have hd : dot_S4096x128_S128x128_S4096x128_1_0_0_1_n_n = DotDims.plain 4096 128 128 :=
    Cert.Lib.PlainDot.eq_plain _ rfl rfl rfl rfl rfl rfl
  rw [hd]
  exact Cert.Lib.PlainDot.matmul_zero_plain_apply none xb w (ix2 r l)

/-- The stored block at row r, lane l. -/
theorem pay_apply (wc wd : Vec Ideal S128x128 .bf16) (xb : Vec Ideal S4096x128 .bf16) (a0 a1 b0 b1 : Vec Ideal S1x4096 .f32)
    (r : Fin 4096) (l : Fin 128) :
    Gen.k0_pay1 (F := Ideal) wc wd xb a0 a1 b0 b1 (ix2 r l)
      = (if l.val < 64 then a0 (ix2 (0 : Fin 1) r) else a1 (ix2 (0 : Fin 1) r)) * (∑ k : Fin 128, xb (ix2 r k) * wc (ix2 k l))
        + (if l.val < 64 then b0 (ix2 (0 : Fin 1) r) else b1 (ix2 (0 : Fin 1) r)) * (∑ k : Fin 128, xb (ix2 r k) * wd (ix2 k l)) := by
  have e : Gen.k0_pay1 (F := Ideal) wc wd xb a0 a1 b0 b1 (ix2 r l)
      = Scalar.select (laneMask (ix2 r l)) (col a0 (ix2 r l)) (col a1 (ix2 r l)) * mm xb wc (ix2 r l)
        + Scalar.select (laneMask (ix2 r l)) (col b0 (ix2 r l)) (col b1 (ix2 r l)) * mm xb wd (ix2 r l) := rfl
  rw [e, laneMask_apply, col_apply, col_apply, col_apply, col_apply, mm_apply, mm_apply]
  by_cases h : l.val < 64
  · rw [if_pos h, if_pos h, if_pos h, select_one, select_one]
  · rw [if_neg h, if_neg h, if_neg h, select_zero, select_zero]

end Cert.KernelIdeal.Point

end
-- ==== Proof.KernelArray.lean ====
/-
  From the blocks the edge kernel writes back to its whole result array.

  The grid has 403 points; point t reads rows 4096·t … 4096·t + 4095 of the packed source features XG [1650688, 128],
  columns 4096·t … of the coefficient rows AB [4, 1650688], and the two whole weight matrices, and writes back rows
  4096·t … of the result. So the result array is ONE function of the four arrays the region finds:
      G (e, l) = AB([l ≥ 64], e) · Σ_k XG(e, k) · WC(k, l)  +  AB(2 + [l ≥ 64], e) · Σ_k XG(e, k) · WD(k, l),
  row e of the result depending on row e of XG and column e of AB only; the 403 blocks tile the 1650688 rows.
-/
import proofs.«161792_j28492813041739_2_alg».proof.Proof.Gen.KernelIdeal.Frame
import proofs.«161792_j28492813041739_2_alg».proof.Proof.KernelPoint
import Idealize.ShloMosaic.Lib.Pipeline.Value

set_option maxRecDepth 16384

noncomputable section

open scoped BigOperators

namespace Cert.KernelIdeal.Arr

open Cert.KernelIdeal Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as one function of the four arrays the region finds. -/
def G (XG : S1650688x128.Idx → EReal) (AB : S4x1650688.Idx → EReal) (WC WD : S128x128.Idx → EReal) : S1650688x128.Idx → EReal :=
  fun j =>
    (if (j 1).val < 64 then AB (ix2 (0 : Fin 4) (j 0)) else AB (ix2 (1 : Fin 4) (j 0)))
        * (∑ k : Fin 128, XG (ix2 (j 0) k) * WC (ix2 k (j 1)))
      + (if (j 1).val < 64 then AB (ix2 (2 : Fin 4) (j 0)) else AB (ix2 (3 : Fin 4) (j 0)))
        * (∑ k : Fin 128, XG (ix2 (j 0) k) * WD (ix2 k (j 1)))

theorem hz : (![0, 0] : Fin 2 → Nat) = fun _ => 0 := funext fun a => by fin_cases a <;> rfl

/-- Row q of a [4, 4096] coefficient block, loaded through the unit-stride rectangle at offset (q, 0). -/
theorem ld_row (X1 : Vec Ideal S4x4096 .f32) (R : Rect S4x4096) (q : Fin 4) (hs : R.shape = S1x4096)
    (r : Fin 4096) (y : R.shape.Idx) (hy0 : R.off 0 + R.stride 0 * (y 0).val = q.val)
    (hy1 : R.off 1 + R.stride 1 * (y 1).val = r.val) : View.ld X1 R y = X1 (ix2 q r) := by
  show X1 (R.emb y) = X1 (ix2 q r)
  refine congrArg X1 (funext fun a => Fin.ext ?_)
  match a with
  | ⟨0, _⟩ => exact hy0
  | ⟨1, _⟩ => exact hy1

/-- What the body stores at a point, at row r and lane l of its block, from the four blocks it loads. -/
theorem block_entry (X0 : Vec Ideal S4096x128 .bf16) (X1 : Vec Ideal S4x4096 .f32) (X2 X3 : Vec Ideal S128x128 .bf16)
    (r : Fin 4096) (l : Fin 128) :
    Gen.k0_pay1 (F := Ideal) X2 X3 X0 (View.ld X1 Gen.r0_2) (View.ld X1 Gen.r0_3) (View.ld X1 Gen.r0_4) (View.ld X1 Gen.r0_5) (ix2 r l)
      = (if l.val < 64 then X1 (ix2 (0 : Fin 4) r) else X1 (ix2 (1 : Fin 4) r))
          * (∑ k : Fin 128, X0 (ix2 r k) * X2 (ix2 k l))
        + (if l.val < 64 then X1 (ix2 (2 : Fin 4) r) else X1 (ix2 (3 : Fin 4) r))
          * (∑ k : Fin 128, X0 (ix2 r k) * X3 (ix2 k l)) := by
  rw [Point.pay_apply]
  have h0 : View.ld X1 Gen.r0_2 (ix2 (0 : Fin 1) r) = X1 (ix2 (0 : Fin 4) r) :=
    ld_row X1 Gen.r0_2 0 rfl r _ rfl (by show 0 + 1 * r.val = r.val; omega)
  have h1 : View.ld X1 Gen.r0_3 (ix2 (0 : Fin 1) r) = X1 (ix2 (1 : Fin 4) r) :=
    ld_row X1 Gen.r0_3 1 rfl r _ rfl (by show 0 + 1 * r.val = r.val; omega)
  have h2 : View.ld X1 Gen.r0_4 (ix2 (0 : Fin 1) r) = X1 (ix2 (2 : Fin 4) r) :=
    ld_row X1 Gen.r0_4 2 rfl r _ rfl (by show 0 + 1 * r.val = r.val; omega)
  have h3 : View.ld X1 Gen.r0_5 (ix2 (0 : Fin 1) r) = X1 (ix2 (3 : Fin 4) r) :=
    ld_row X1 Gen.r0_5 3 rfl r _ rfl (by show 0 + 1 * r.val = r.val; omega)
  rw [h0, h1, h2, h3]

/-- The printed index maps over the grid: windows 0 and 4 move down the rows with the point, window 1 along the
    columns, windows 2 and 3 stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of G of the four arrays as the region finds them. -/
theorem flushed_eq (c : Dev nD) (t : Fin cfg0.N) :
    (Gen.dats m 0 c).flushed 4 t = ((cfg0.win 4).blk t).view.read (Elt Ideal)
      (G (Gen.V m c main_v90) (Gen.V m c main_v91) (Gen.V m c main_v100) (Gen.V m c main_v103)) := by
  show (cfg0.win 4).cut (grid0.coords t) ((Gen.dats m 0 c).after 4 t) = _
  rw [Gen.after0_4]
  unfold Gen.out0_4
  rw [View.canon_unit_zero hz]
  simp only [View.ld_unit_zero (S := S128x128) hz, View.ld_unit_zero (S := S4096x128) hz]
  obtain ⟨e00, e01, e10, e11, e20, e21, e30, e31, e40, e41⟩ := idx_facts t
  funext j
  have hj0 : (j 0).val < 4096 := (j 0).isLt
  have hj1 : (j 1).val < 128 := (j 1).isLt
  have hj : j = ix2 (⟨(j 0).val, hj0⟩ : Fin 4096) (⟨(j 1).val, hj1⟩ : Fin 128) :=
    funext fun a => match a with | ⟨0, _⟩ => rfl | ⟨1, _⟩ => rfl
  refine (congrArg (Gen.k0_pay1 (F := Ideal) (Gen.iblk m c 2 t) (Gen.iblk m c 3 t) (Gen.iblk m c 0 t)
      (View.ld (Gen.iblk m c 1 t) Gen.r0_2) (View.ld (Gen.iblk m c 1 t) Gen.r0_3) (View.ld (Gen.iblk m c 1 t) Gen.r0_4)
      (View.ld (Gen.iblk m c 1 t) Gen.r0_5)) hj).trans ?_
  refine (block_entry (Gen.iblk m c 0 t) (Gen.iblk m c 1 t) (Gen.iblk m c 2 t) (Gen.iblk m c 3 t) ⟨(j 0).val, hj0⟩ ⟨(j 1).val, hj1⟩).trans ?_
  show _ = G (Gen.V m c main_v90) (Gen.V m c main_v91) (Gen.V m c main_v100) (Gen.V m c main_v103) (((cfg0.win 4).blk t).view.emb j)
  unfold G
  have hl : ((((cfg0.win 4).blk t).view.emb j) 1).val = (j 1).val := by
    show win0_4.index t (1 : Fin 2) * 128 + 1 * (j 1).val = (j 1).val; omega
  have hx : ∀ k : Fin 128, Gen.iblk m c 0 t (ix2 (⟨(j 0).val, hj0⟩ : Fin 4096) k)
      = Gen.V m c main_v90 (ix2 ((((cfg0.win 4).blk t).view.emb j) 0) k) := fun k => by
    show Gen.V m c main_v90 (((cfg0.win 0).blk t).view.emb (ix2 (⟨(j 0).val, hj0⟩ : Fin 4096) k)) = _
    refine congrArg (Gen.V m c main_v90) (funext fun a => Fin.ext ?_)
    match a with
    | ⟨0, _⟩ => show win0_0.index t (0 : Fin 2) * 4096 + 1 * (j 0).val = win0_4.index t (0 : Fin 2) * 4096 + 1 * (j 0).val; omega
    | ⟨1, _⟩ => show win0_0.index t (1 : Fin 2) * 128 + 1 * k.val = k.val; omega
  have hab : ∀ q : Fin 4, Gen.iblk m c 1 t (ix2 q (⟨(j 0).val, hj0⟩ : Fin 4096))
      = Gen.V m c main_v91 (ix2 q ((((cfg0.win 4).blk t).view.emb j) 0)) := fun q => by
    show Gen.V m c main_v91 (((cfg0.win 1).blk t).view.emb (ix2 q (⟨(j 0).val, hj0⟩ : Fin 4096))) = _
    refine congrArg (Gen.V m c main_v91) (funext fun a => Fin.ext ?_)
    match a with
    | ⟨0, _⟩ => show win0_1.index t (0 : Fin 2) * 4 + 1 * q.val = q.val; omega
    | ⟨1, _⟩ => show win0_1.index t (1 : Fin 2) * 4096 + 1 * (j 0).val = win0_4.index t (0 : Fin 2) * 4096 + 1 * (j 0).val; omega
  have hwc : ∀ k : Fin 128, Gen.iblk m c 2 t (ix2 k (⟨(j 1).val, hj1⟩ : Fin 128))
      = Gen.V m c main_v100 (ix2 k ((((cfg0.win 4).blk t).view.emb j) 1)) := fun k => by
    show Gen.V m c main_v100 (((cfg0.win 2).blk t).view.emb (ix2 k (⟨(j 1).val, hj1⟩ : Fin 128))) = _
    refine congrArg (Gen.V m c main_v100) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega
  have hwd : ∀ k : Fin 128, Gen.iblk m c 3 t (ix2 k (⟨(j 1).val, hj1⟩ : Fin 128))
      = Gen.V m c main_v103 (ix2 k ((((cfg0.win 4).blk t).view.emb j) 1)) := fun k => by
    show Gen.V m c main_v103 (((cfg0.win 3).blk t).view.emb (ix2 k (⟨(j 1).val, hj1⟩ : Fin 128))) = _
    refine congrArg (Gen.V m c main_v103) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_4.index t (1 : Fin 2) * 128 + 1 * (j 1).val; omega
  simp only [hx, hab, hwc, hwd, hl]

/-- An index of the result array is in point t's block iff its row is one of the block's 4096 rows. -/
theorem mem_blk (t : Fin cfg0.N) (i : S1650688x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v104).slice (win0_4.rect t)).set ↔ _
  rw [View.set_slice_whole, Rect.mem_set_unit]
  exact Iff.rfl

/-- The 403 blocks tile the rows: row e is in the block of point e / 4096. -/
theorem cover (i : S1650688x128.Idx) : ∃ t : Fin cfg0.N, (cfg0.win 4).flush t = true ∧ i ∈ ((cfg0.win 4).blk t).view.set := by
  have hi0 : (i 0).val < 1650688 := (i 0).isLt
  have hi1 : (i 1).val < 128 := (i 1).isLt
  let t : Fin cfg0.N := ⟨(i 0).val / 4096, by show (i 0).val / 4096 < 403; omega⟩
  obtain ⟨-, -, -, -, -, -, -, -, e40, e41⟩ := idx_facts t
  have ht : t.val = (i 0).val / 4096 := rfl
  refine ⟨t, Gen.flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-- THE RESULT ARRAY after the region: G of the four arrays the region finds. -/
theorem final (c : Dev nD) : (Gen.dats m 0 c).arrAt 4 cfg0.N
    = G (Gen.V m c main_v90) (Gen.V m c main_v91) (Gen.V m c main_v100) (Gen.V m c main_v103) :=
  (Gen.dats m 0 c).arrAt_eq_of_cover 4 _ (fun t _ => flushed_eq m c t) cover

end Cert.KernelIdeal.Arr

end
-- ==== Proof.EdgeSpec.lean ====
/-
  The message-passing layer as ONE function of the seven argument arrays, on the extended reals.

  With N = 50000 nodes, E = 1600000 edges and E' = E + N (every node gets a self loop appended):
    src, tgt   : the two rows of the edge list, each followed by 0, 1, …, N − 1; a negative entry has N added
                 (`wrapE`), and gathers clamp / scatters drop what is still out of range;
    deg n      = the number of e with tgt e = n (ones added into zeros);
    dis n      = if deg n > 0 then 1 / √(max (deg n) ε) else 0;
    norm e     = dis (src e) · dis (tgt e);
    keep b e   = (1 + tanh (flux b (src e) · flux b (tgt e) / 1)) · ½                         (e < E);
    fDisc b e  = keep · f e + (1 − keep) · (1 − f e)                                          (e < E);
    fFull b e  = fDisc b e for e < E, and 0 on the self loops;
    msg b e o  = norm e · ((1 − fFull b e) · (x · Wcᵀ) b (src e) o + fFull b e · (x · Wdᵀ) b (src e) o);
    out b n o  = Σ_{e : tgt e = n} msg b e o  + bias o.
  Each stage is spelt with the host operations of the plain-jnp program, so that a program's buffer is the stage by
  unfolding. `tail` is the last two lines (the segment sum and the bias) of any message array.
-/
import proofs.«161792_j28492813041739_2_alg».proof.Proof.Gen.ReferenceIdeal
import Idealize.ShloMosaic.PureOps.Ideal

noncomputable section

namespace Cert.EdgeSpec

open Idealize.ShloMosaic Cert.ReferenceIdeal Cert.ReferenceIdeal.Facts₀ Cert.ReferenceIdeal.Facts

/-- Row 0 of the edge list: the sources of the E given edges. -/
def row0 (ei : IVec S2x1600000 32) : IVec S1600000 32 :=
  shapeCast S1600000 (extractStridedSlice S1x1600000 ![0, 0] ei slices_S2x1600000_S1x1600000_0_0) shapeCasts_S1x1600000_S1600000

/-- Row 1 of the edge list: the targets of the E given edges. -/
def row1 (ei : IVec S2x1600000 32) : IVec S1600000 32 :=
  shapeCast S1600000 (extractStridedSlice S1x1600000 ![1, 0] ei slices_S2x1600000_S1x1600000_1_0) shapeCasts_S1x1600000_S1600000

/-- An index list followed by the self loops 0, 1, …, N − 1. -/
def withLoops (v : IVec S1600000 32) : IVec S1650000 32 :=
  concatenate S1650000 0 [⟨S1600000, v⟩, ⟨S50000, iotaInDim S50000 32 0⟩] concatenates_S1600000_S50000_S1650000_d0

/-- A negative index has N added (numpy's wrap-around), over the E' edges; the result is the [E', 1] index column. -/
def wrapE (v : IVec S1650000 32) : IVec S1650000x1 32 :=
  broadcastInDim S1650000x1 ![0] bcast_S1650000_S1650000x1_0
    (select (cmpi .slt v (broadcastInDim S1650000 ![] bcast_S_S1650000 (constantI S_ 32 0#32)))
      (addi v (broadcastInDim S1650000 ![] bcast_S_S1650000 (constantI S_ 32 50000#32))) v)

/-- The same over the E given edges. -/
def wrapO (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- The source index column of all E' edges. -/
def srcIdx (ei : IVec S2x1600000 32) : IVec S1650000x1 32 := wrapE (withLoops (row0 ei))

/-- The target index column of all E' edges. -/
def tgtIdx (ei : IVec S2x1600000 32) : IVec S1650000x1 32 := wrapE (withLoops (row1 ei))

/-- In-degree with self loops: ones added into zeros at the targets. -/
def deg (ei : IVec S2x1600000 32) : FVec Ideal S50000 .f32 :=
  Host.scatterAdd scatter_S50000_S1650000x1_S1650000_n_0_0_1
    (broadcastInDim S50000 ![] bcast_S_S50000 (constant S_ .f32 0x00000000#32)) (tgtIdx ei)
    (broadcastInDim S1650000 ![] bcast_S_S1650000 (constant S_ .f32 0x3F800000#32))

/-- deg^(−1/2), guarded: 0 where the degree is not positive. -/
def dis (ei : IVec S2x1600000 32) : FVec Ideal S50000 .f32 :=
  select (cmpf .ogt (deg ei) (broadcastInDim S50000 ![] bcast_S_S50000 (constant S_ .f32 0x00000000#32)))
    (Host.rsqrt (maximumf (deg ei) (broadcastInDim S50000 ![] bcast_S_S50000 (constant S_ .f32 0x0DA24260#32))))
    (broadcastInDim S50000 ![] bcast_S_S50000 (constant S_ .f32 0x00000000#32))

/-- The symmetric normalisation of edge e: dis (src e) · dis (tgt e). -/
def norm (ei : IVec S2x1600000 32) : FVec Ideal S1650000 .f32 :=
  mulf (Host.gather gather_S50000_S1650000x1_S1650000_n_0_n_n_0_1_1 (dis ei) (srcIdx ei))
    (Host.gather gather_S50000_S1650000x1_S1650000_n_0_n_n_0_1_1 (dis ei) (tgtIdx ei))

/-- (1 + tanh (flux(src) · flux(tgt) / 1)) · ½ on the given edges, per batch. -/
def keep (ei : IVec S2x1600000 32) (fl : FVec Ideal S2x50000 .f32) : FVec Ideal S2x1600000 .f32 :=
  mulf (addf (broadcastInDim S2x1600000 ![] bcast_S_S2x1600000 (constant S_ .f32 0x3F800000#32))
      (Host.tanh (Host.divf
        (mulf (Host.gather gather_S2x50000_S1600000x1_S2x1600000_0_1_n_n_1_1_21 fl (wrapO (row0 ei)))
          (Host.gather gather_S2x50000_S1600000x1_S2x1600000_0_1_n_n_1_1_21 fl (wrapO (row1 ei))))
        (broadcastInDim S2x1600000 ![] bcast_S_S2x1600000 (constant S_ .f32 0x3F800000#32)))))
    (broadcastInDim S2x1600000 ![] bcast_S_S2x1600000 (constant S_ .f32 0x3F000000#32))

/-- The given edge strengths as a [1, E] row. -/
def fRow (fdo : FVec Ideal S1600000 .f32) : FVec Ideal S1x1600000 .f32 :=
  broadcastInDim S1x1600000 ![1] bcast_S1600000_S1x1600000_1 fdo

/-- keep · f + (1 − keep) · (1 − f) on the given edges. -/
def fDisc (ei : IVec S2x1600000 32) (fdo : FVec Ideal S1600000 .f32) (fl : FVec Ideal S2x50000 .f32) : FVec Ideal S2x1600000 .f32 :=
  addf (mulf (keep ei fl) (broadcastInDim S2x1600000 ![0, 1] bcast_S1x1600000_S2x1600000_0_1 (fRow fdo)))
    (mulf (subf (broadcastInDim S2x1600000 ![] bcast_S_S2x1600000 (constant S_ .f32 0x3F800000#32)) (keep ei fl))
      (broadcastInDim S2x1600000 ![0, 1] bcast_S1x1600000_S2x1600000_0_1
        (subf (broadcastInDim S1x1600000 ![] bcast_S_S1x1600000 (constant S_ .f32 0x3F800000#32)) (fRow fdo))))

/-- The blend factor of all E' edges: fDisc on the given edges, 0 on the self loops. -/
def fFull (ei : IVec S2x1600000 32) (fdo : FVec Ideal S1600000 .f32) (fl : FVec Ideal S2x50000 .f32) : FVec Ideal S2x1650000 .f32 :=
  concatenate S2x1650000 1 [⟨S2x1600000, fDisc ei fdo fl⟩,
    ⟨S2x50000, broadcastInDim S2x50000 ![] bcast_S_S2x50000 (constant S_ .f32 0x00000000#32)⟩]
    concatenates_S2x1600000_S2x50000_S2x1650000_d1

/-- x · Wᵀ per node: contraction of the feature axis of x with axis 1 of W. -/
def xw (x : FVec Ideal S2x50000x64 .f32) (w : FVec Ideal S64x64 .f32) : FVec Ideal S2x50000x64 .f32 :=
  Host.dotGeneral dot_S2x50000x64_S64x64_S2x50000x64_2_1_01_0_n_n none x w

/-- A [2, E'] factor spread over the 64 output features. -/
def perEdge (f : FVec Ideal S2x1650000 .f32) : FVec Ideal S2x1650000x64 .f32 :=
  broadcastInDim S2x1650000x64 ![0, 1, 2] bcast_S2x1650000x1_S2x1650000x64_0_1_2
    (broadcastInDim S2x1650000x1 ![0, 1] bcast_S2x1650000_S2x1650000x1_0_1 f)

/-- The message of every edge, per batch and output feature. -/
def msg (x : FVec Ideal S2x50000x64 .f32) (ei : IVec S2x1600000 32) (fdo : FVec Ideal S1600000 .f32)
    (fl : FVec Ideal S2x50000 .f32) (wc wd : FVec Ideal S64x64 .f32) : FVec Ideal S2x1650000x64 .f32 :=
  mulf (broadcastInDim S2x1650000x64 ![0, 1, 2] bcast_S1x1650000x1_S2x1650000x64_0_1_2
      (broadcastInDim S1x1650000x1 ![1] bcast_S1650000_S1x1650000x1_1 (norm ei)))
    (addf
      (mulf (perEdge (subf (broadcastInDim S2x1650000 ![] bcast_S_S2x1650000 (constant S_ .f32 0x3F800000#32)) (fFull ei fdo fl)))
        (Host.gather gather_S2x50000x64_S1650000x1_S2x1650000x64_02_1_n_n_1_1_2164 (xw x wc) (srcIdx ei)))
      (mulf (perEdge (fFull ei fdo fl))
        (Host.gather gather_S2x50000x64_S1650000x1_S2x1650000x64_02_1_n_n_1_1_2164 (xw x wd) (srcIdx ei))))

/-- The segment sum of a message array at the targets, plus the bias on every node. -/
def tail (idx : IVec S1650000x1 32) (u : FVec Ideal S2x1650000x64 .f32) (bias : FVec Ideal S64 .f32) : FVec Ideal S2x50000x64 .f32 :=
  addf (Host.scatterAdd scatter_S2x50000x64_S1650000x1_S2x1650000x64_02_1_1_1
      (broadcastInDim S2x50000x64 ![] bcast_S_S2x50000x64 (constant S_ .f32 0x00000000#32)) idx u)
    (broadcastInDim S2x50000x64 ![0, 1, 2] bcast_S1x1x64_S2x50000x64_0_1_2 (broadcastInDim S1x1x64 ![2] bcast_S64_S1x1x64_2 bias))

/-- The layer's output. -/
def out (x : FVec Ideal S2x50000x64 .f32) (ei : IVec S2x1600000 32) (fdo : FVec Ideal S1600000 .f32)
    (fl : FVec Ideal S2x50000 .f32) (wc wd : FVec Ideal S64x64 .f32) (bias : FVec Ideal S64 .f32) : FVec Ideal S2x50000x64 .f32 :=
  tail (tgtIdx ei) (msg x ei fdo fl wc wd) bias

end Cert.EdgeSpec

end
-- ==== Proof.KernelHost.lean ====
/-
  The four arrays the edge kernel is launched on, as functions of the argument arrays.

  * XG [1650688, 128]: row e < 1650000 is the packed feature row of node src e — lane 64·b + i holds x (b, src e, i) —,
    the 688 rows after them are the padding value;
  * AB [4, 1650688]: rows 0, 1 are norm e · (1 − fFull (b, e)) for b = 0, 1, rows 2, 3 are norm e · fFull (b, e); the 688
    columns after the 1650000 edges are the padding value;
  * WB w [128, 128]: the Kronecker product of the 2 × 2 identity with wᵀ: entry (64·p + i, 64·q + o) is [p = q] · w (o, i).
  Each is spelt with the host operations of the program, over the specification's norm, fFull and source index column.
-/
import proofs.«161792_j28492813041739_2_alg».proof.Proof.Gen.KernelIdeal
import proofs.«161792_j28492813041739_2_alg».proof.Proof.EdgeSpec

noncomputable section

namespace Cert.KernelIdeal.Pre

open Idealize.ShloMosaic Cert.KernelIdeal Cert.KernelIdeal.Facts₀ Cert.KernelIdeal.Facts

/-- The node features with the batch packed into the lanes: [N, 128], lane 64·b + i of node n is x (b, n, i). -/
def xPacked (x : FVec Ideal S2x50000x64 .f32) : FVec Ideal S50000x128 .bf16 :=
  truncf .bf16 (shapeCast S50000x128 (transpose S50000x2x64 [1, 0, 2] x transposes_S2x50000x64_S50000x2x64_1_0_2)
    shapeCasts_S50000x2x64_S50000x128) bitsLt_bf16_f32

/-- The packed rows gathered at the source of every edge, padded to the next multiple of the block. -/
def XG (x : FVec Ideal S2x50000x64 .f32) (ei : IVec S2x1600000 32) : FVec Ideal S1650688x128 .bf16 :=
  pad S1650688x128 ![0, 0] ![688, 0] ![0, 0]
    (Host.gather gather_S50000x128_S1650000x1_S1650000x128_1_0_n_n_0_1_1128 (xPacked x) (Cert.EdgeSpec.srcIdx ei))
    (sitofp .bf16 (constantI S_ 32 0#32)) pads_S1650000x128_S1650688x128_06880_000 h_S_

/-- A per-edge factor spread over the two batches. -/
def spread (v : FVec Ideal S1650000 .f32) : FVec Ideal S2x1650000 .f32 :=
  broadcastInDim S2x1650000 ![0, 1] bcast_S1x1650000_S2x1650000_0_1 (broadcastInDim S1x1650000 ![1] bcast_S1650000_S1x1650000_1 v)

/-- The four coefficient rows, padded along the edges. -/
def AB (ei : IVec S2x1600000 32) (fdo : FVec Ideal S1600000 .f32) (fl : FVec Ideal S2x50000 .f32) : FVec Ideal S4x1650688 .f32 :=
  pad S4x1650688 ![0, 0] ![0, 688] ![0, 0]
    (concatenate S4x1650000 0
      [⟨S2x1650000, mulf (spread (Cert.EdgeSpec.norm ei))
          (subf (broadcastInDim S2x1650000 ![] bcast_S_S2x1650000 (constant S_ .f32 0x3F800000#32)) (Cert.EdgeSpec.fFull ei fdo fl))⟩,
        ⟨S2x1650000, mulf (spread (Cert.EdgeSpec.norm ei)) (Cert.EdgeSpec.fFull ei fdo fl)⟩]
      concatenates_S2x1650000_S2x1650000_S4x1650000_d0)
    (sitofp .f32 (constantI S_ 32 0#32)) pads_S4x1650000_S4x1650688_000_06880 h_S_

/-- The 2 × 2 identity matrix, as the comparison of the two coordinate grids. -/
def eye2 : FVec Ideal S2x2 .f32 :=
  uitofp .f32 (cmpi .eq (addi (iotaInDim S2x2 32 0) (broadcastInDim S2x2 ![] bcast_S_S2x2 (constantI S_ 32 0#32))) (iotaInDim S2x2 32 1))

/-- The Kronecker product of the 2 × 2 identity with wᵀ, as a 128 × 128 matrix. -/
def WB (w : FVec Ideal S64x64 .f32) : FVec Ideal S128x128 .bf16 :=
  truncf .bf16 (shapeCast S128x128
    (mulf (broadcastInDim S2x64x2x64 ![0, 1, 2, 3] bcast_S2x1x2x1_S2x64x2x64_0_1_2_3 (broadcastInDim S2x1x2x1 ![0, 2] bcast_S2x2_S2x1x2x1_0_2 eye2))
      (broadcastInDim S2x64x2x64 ![0, 1, 2, 3] bcast_S1x64x1x64_S2x64x2x64_0_1_2_3
        (broadcastInDim S1x64x1x64 ![1, 3] bcast_S64x64_S1x64x1x64_1_3 (transpose S64x64 [1, 0] w transposes_S64x64_S64x64_1_0))))
    shapeCasts_S2x64x2x64_S128x128) bitsLt_bf16_f32

end Cert.KernelIdeal.Pre

end
-- ==== Proof.LibTypedRef.lean ====
/-
  A VALUE PASSED THROUGH A TYPED BUFFER REFERENCE AND BACK IS THE VALUE, generic in everything.

  The operations of a module-local function (an outlined  where,  clip,  relu, …) name their buffers with the
  tensor type attached: a typed reference is a buffer together with the equation "this buffer's type is T".
  Writing a value of type T through it transports the value along that equation to the buffer's own type, and
  reading transports it back.  The two transports are inverse to each other whatever the buffer and whatever the
  equation's proof:

  * `ofBuf_toBuf`  — read back what was written through the same typed reference: the value written;
  * `toBuf_ofBuf`  — write back what was read through it: the contents read.

  These cancel every transport on a function's OWN intermediate buffers.  What is then left in a term are the
  transports at the buffers the function shares with its caller (one per operand read, one per result written);
  each of those is the identity by `rfl` when stated at a VARIABLE for the one buffer concerned, because that
  buffer's type in the program's table computes to the stated type.  Removing all of them before two large terms are
  compared matters: met in the middle of a large term a transport is not reduced first, the comparison drifts into
  unfolding the operations around it, and an operation that sums over a long axis is then evaluated.

  Nothing here depends on a program.
-/
import Idealize.ShloMosaic.Lib.StableHlo

noncomputable section

namespace Cert.Lib.TypedRef

open Idealize.ShloMosaic Idealize.ShloMosaic.StableHlo

variable {sig : RefSig} {Val : EltTy → Type} {T : BufTy}

/-- Reading back through a typed reference what was written through it gives the value written. -/
theorem ofBuf_toBuf (x : TRef sig T) (v : T.Contents Val) : x.ofBuf (x.toBuf v) = v := by
  obtain ⟨r, h, a, b⟩ := x
  subst h
  rfl

/-- Writing back through a typed reference what was read through it gives the contents read. -/
theorem toBuf_ofBuf (x : TRef sig T) (v : x.ref.ty.Contents Val) : x.toBuf (x.ofBuf v) = v := by
  obtain ⟨r, h, a, b⟩ := x
  subst h
  rfl

end Cert.Lib.TypedRef

end
-- ==== Proof.KernelEntryX.lean ====
/-
  Where the region is entered, the first window's array is the gathered, padded feature rows XG of the arguments, and
  the target list with its self loops is the specification's: both by running the host operations before the region.
-/
import proofs.«161792_j28492813041739_2_alg».proof.Proof.Gen.KernelIdeal.Frame
import proofs.«161792_j28492813041739_2_alg».proof.Proof.KernelHost
import proofs.«161792_j28492813041739_2_alg».proof.Proof.LibTypedRef
import Idealize.ShloMosaic.Lib.StableHlo.Run

noncomputable section

namespace Cert.KernelIdeal.Pre

open Idealize.ShloMosaic Idealize.SL.Sem Idealize.ShloMosaic.StableHlo Cert.KernelIdeal Cert.KernelIdeal.Facts₀ Cert.KernelIdeal.Facts

variable (m : (ℓ : Loc nD τ sig) → Buf (Elt Ideal) ℓ) (c : Dev nD)

set_option maxHeartbeats 8000000 in
set_option maxRecDepth 65536 in
/-- The first window's array at region entry. -/
theorem V_v90 : (Gen.V m c main_v90 : S1650688x128.Idx → EReal) = XG (m ((c.tc : Thread nD τ).loc main_arg0)) (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  generalize hc1 : ((fun a b => concatenate S1650000 0 [⟨S1600000, a⟩, ⟨S50000, b⟩] concatenates_S1600000_S50000_S1650000_d0) : (⟨S1600000, .i32⟩ : BufTy).Contents (Elt Ideal) → (⟨S50000, .i32⟩ : BufTy).Contents (Elt Ideal) → (⟨S1650000, .i32⟩ : BufTy).Contents (Elt Ideal)) = cat1
  generalize hc2 : ((fun a b => concatenate S2x1650000 1 [⟨S2x1600000, a⟩, ⟨S2x50000, b⟩] concatenates_S2x1600000_S2x50000_S2x1650000_d1) : (⟨S2x1600000, .f32⟩ : BufTy).Contents (Elt Ideal) → (⟨S2x50000, .f32⟩ : BufTy).Contents (Elt Ideal) → (⟨S2x1650000, .f32⟩ : BufTy).Contents (Elt Ideal)) = cat2
  generalize hc3 : ((fun a b => concatenate S4x1650000 0 [⟨S2x1650000, a⟩, ⟨S2x1650000, b⟩] concatenates_S2x1650000_S2x1650000_S4x1650000_d0) : (⟨S2x1650000, .f32⟩ : BufTy).Contents (Elt Ideal) → (⟨S2x1650000, .f32⟩ : BufTy).Contents (Elt Ideal) → (⟨S4x1650000, .f32⟩ : BufTy).Contents (Elt Ideal)) = cat3
  after_results_simp
  subst hc1 hc2 hc3
  have s0 : ∀ h1 h2 h3 (v : (⟨S1650688x128, .bf16⟩ : BufTy).Contents (Elt Ideal)),
      (TRef.of (sig := sig) (T := ⟨S1650688x128, .bf16⟩) main_v90 h1 h2 h3).toBuf (Val := Elt Ideal) v = (v : main_v90.ty.Contents (Elt Ideal)) := fun _ _ _ _ => rfl
  have s1 : ∀ h1 h2 h3 (v : main_v89.ty.Contents (Elt Ideal)),
      (TRef.of (sig := sig) (T := ⟨S1650000x128, .bf16⟩) main_v89 h1 h2 h3).ofBuf (Val := Elt Ideal) v = (v : (⟨S1650000x128, .bf16⟩ : BufTy).Contents (Elt Ideal)) := fun _ _ _ _ => rfl
  have s2 : ∀ h1 h2 h3 (v : main_c_22.ty.Contents (Elt Ideal)),
      (TRef.of (sig := sig) (T := ⟨S_, .i32⟩) main_c_22 h1 h2 h3).ofBuf (Val := Elt Ideal) v = (v : (⟨S_, .i32⟩ : BufTy).Contents (Elt Ideal)) := fun _ _ _ _ => rfl
  simp only [Cert.Lib.TypedRef.ofBuf_toBuf, id, s0, s1, s2]
  unfold XG xPacked Cert.EdgeSpec.srcIdx Cert.EdgeSpec.wrapE Cert.EdgeSpec.withLoops Cert.EdgeSpec.row0
  rfl

set_option maxHeartbeats 8000000 in
set_option maxRecDepth 65536 in
/-- The target list followed by the self loops, at region entry. -/
theorem V_v6 : (Gen.V m c main_v6 : S1650000.Idx → BitVec 32) = Cert.EdgeSpec.withLoops (Cert.EdgeSpec.row1 (m ((c.tc : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  generalize hc1 : ((fun a b => concatenate S1650000 0 [⟨S1600000, a⟩, ⟨S50000, b⟩] concatenates_S1600000_S50000_S1650000_d0) : (⟨S1600000, .i32⟩ : BufTy).Contents (Elt Ideal) → (⟨S50000, .i32⟩ : BufTy).Contents (Elt Ideal) → (⟨S1650000, .i32⟩ : BufTy).Contents (Elt Ideal)) = cat1
  generalize hc2 : ((fun a b => concatenate S2x1650000 1 [⟨S2x1600000, a⟩, ⟨S2x50000, b⟩] concatenates_S2x1600000_S2x50000_S2x1650000_d1) : (⟨S2x1600000, .f32⟩ : BufTy).Contents (Elt Ideal) → (⟨S2x50000, .f32⟩ : BufTy).Contents (Elt Ideal) → (⟨S2x1650000, .f32⟩ : BufTy).Contents (Elt Ideal)) = cat2
  generalize hc3 : ((fun a b => concatenate S4x1650000 0 [⟨S2x1650000, a⟩, ⟨S2x1650000, b⟩] concatenates_S2x1650000_S2x1650000_S4x1650000_d0) : (⟨S2x1650000, .f32⟩ : BufTy).Contents (Elt Ideal) → (⟨S2x1650000, .f32⟩ : BufTy).Contents (Elt Ideal) → (⟨S4x1650000, .f32⟩ : BufTy).Contents (Elt Ideal)) = cat3
  after_results_simp
  subst hc1 hc2 hc3

  simp only [Cert.Lib.TypedRef.ofBuf_toBuf, id]
  unfold Cert.EdgeSpec.withLoops Cert.EdgeSpec.row1
  rfl

end Cert.KernelIdeal.Pre

end
-- ==== Proof.KernelEntryAB.lean ====
/-
  Where the region is entered, the second window's array is the four padded coefficient rows AB of the arguments: by
  running the host operations before the region (the degree normalisation, the blend factor, their products).
-/
import proofs.«161792_j28492813041739_2_alg».proof.Proof.Gen.KernelIdeal.Frame
import proofs.«161792_j28492813041739_2_alg».proof.Proof.KernelHost
import proofs.«161792_j28492813041739_2_alg».proof.Proof.LibTypedRef
import Idealize.ShloMosaic.Lib.StableHlo.Run

noncomputable section

namespace Cert.KernelIdeal.Pre

open Idealize.ShloMosaic Idealize.SL.Sem Idealize.ShloMosaic.StableHlo Cert.KernelIdeal Cert.KernelIdeal.Facts₀ Cert.KernelIdeal.Facts

variable (m : (ℓ : Loc nD τ sig) → Buf (Elt Ideal) ℓ) (c : Dev nD)

set_option maxHeartbeats 16000000 in
set_option maxRecDepth 65536 in
/-- The second window's array at region entry. -/
theorem V_v91 : (Gen.V m c main_v91 : S4x1650688.Idx → EReal) = AB (m ((c.tc : Thread nD τ).loc main_arg1)) (m ((c.tc : Thread nD τ).loc main_arg2)) (m ((c.tc : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  generalize hc1 : ((fun a b => concatenate S1650000 0 [⟨S1600000, a⟩, ⟨S50000, b⟩] concatenates_S1600000_S50000_S1650000_d0) : (⟨S1600000, .i32⟩ : BufTy).Contents (Elt Ideal) → (⟨S50000, .i32⟩ : BufTy).Contents (Elt Ideal) → (⟨S1650000, .i32⟩ : BufTy).Contents (Elt Ideal)) = cat1
  generalize hc2 : ((fun a b => concatenate S2x1650000 1 [⟨S2x1600000, a⟩, ⟨S2x50000, b⟩] concatenates_S2x1600000_S2x50000_S2x1650000_d1) : (⟨S2x1600000, .f32⟩ : BufTy).Contents (Elt Ideal) → (⟨S2x50000, .f32⟩ : BufTy).Contents (Elt Ideal) → (⟨S2x1650000, .f32⟩ : BufTy).Contents (Elt Ideal)) = cat2
  generalize hc3 : ((fun a b => concatenate S4x1650000 0 [⟨S2x1650000, a⟩, ⟨S2x1650000, b⟩] concatenates_S2x1650000_S2x1650000_S4x1650000_d0) : (⟨S2x1650000, .f32⟩ : BufTy).Contents (Elt Ideal) → (⟨S2x1650000, .f32⟩ : BufTy).Contents (Elt Ideal) → (⟨S4x1650000, .f32⟩ : BufTy).Contents (Elt Ideal)) = cat3
  after_results_simp
  have s0 : ∀ h1 h2 h3 (v : (⟨S50000, .f32⟩ : BufTy).Contents (Elt Ideal)),
      (TRef.of (sig := sig) (T := ⟨S50000, .f32⟩) main_v21 h1 h2 h3).toBuf (Val := Elt Ideal) v = (v : main_v21.ty.Contents (Elt Ideal)) := fun _ _ _ _ => rfl
  have s1 : ∀ h1 h2 h3 (v : main_v17.ty.Contents (Elt Ideal)),
      (TRef.of (sig := sig) (T := ⟨S50000, .i1⟩) main_v17 h1 h2 h3).ofBuf (Val := Elt Ideal) v = (v : (⟨S50000, .i1⟩ : BufTy).Contents (Elt Ideal)) := fun _ _ _ _ => rfl
  have s2 : ∀ h1 h2 h3 (v : main_v20.ty.Contents (Elt Ideal)),
      (TRef.of (sig := sig) (T := ⟨S50000, .f32⟩) main_v20 h1 h2 h3).ofBuf (Val := Elt Ideal) v = (v : (⟨S50000, .f32⟩ : BufTy).Contents (Elt Ideal)) := fun _ _ _ _ => rfl
  have s3 : ∀ h1 h2 h3 (v : main_cst_4.ty.Contents (Elt Ideal)),
      (TRef.of (sig := sig) (T := ⟨S_, .f32⟩) main_cst_4 h1 h2 h3).ofBuf (Val := Elt Ideal) v = (v : (⟨S_, .f32⟩ : BufTy).Contents (Elt Ideal)) := fun _ _ _ _ => rfl
  have s4 : ∀ h1 h2 h3 (v : (⟨S4x1650688, .f32⟩ : BufTy).Contents (Elt Ideal)),
      (TRef.of (sig := sig) (T := ⟨S4x1650688, .f32⟩) main_v91 h1 h2 h3).toBuf (Val := Elt Ideal) v = (v : main_v91.ty.Contents (Elt Ideal)) := fun _ _ _ _ => rfl
  have s5 : ∀ h1 h2 h3 (v : main_v79.ty.Contents (Elt Ideal)),
      (TRef.of (sig := sig) (T := ⟨S4x1650000, .f32⟩) main_v79 h1 h2 h3).ofBuf (Val := Elt Ideal) v = (v : (⟨S4x1650000, .f32⟩ : BufTy).Contents (Elt Ideal)) := fun _ _ _ _ => rfl
  have s6 : ∀ h1 h2 h3 (v : main_c_23.ty.Contents (Elt Ideal)),
      (TRef.of (sig := sig) (T := ⟨S_, .i32⟩) main_c_23 h1 h2 h3).ofBuf (Val := Elt Ideal) v = (v : (⟨S_, .i32⟩ : BufTy).Contents (Elt Ideal)) := fun _ _ _ _ => rfl
  simp only [Cert.Lib.TypedRef.ofBuf_toBuf, id, s0, s1, s2, s3, s4, s5, s6]
  subst hc1 hc2 hc3
  unfold AB spread Cert.EdgeSpec.norm Cert.EdgeSpec.dis Cert.EdgeSpec.deg Cert.EdgeSpec.fFull Cert.EdgeSpec.fDisc Cert.EdgeSpec.fRow Cert.EdgeSpec.keep Cert.EdgeSpec.wrapO Cert.EdgeSpec.srcIdx Cert.EdgeSpec.tgtIdx Cert.EdgeSpec.wrapE Cert.EdgeSpec.withLoops Cert.EdgeSpec.row0 Cert.EdgeSpec.row1
  rfl

end Cert.KernelIdeal.Pre

end
-- ==== Proof.KernelEntryW.lean ====
/-
  Where the region is entered, the third and fourth windows' arrays are the block-diagonal matrices WB of the two weight
  arguments: by running the host operations before the region (the identity, the transposes, the Kronecker products).
-/
import proofs.«161792_j28492813041739_2_alg».proof.Proof.Gen.KernelIdeal.Frame
import proofs.«161792_j28492813041739_2_alg».proof.Proof.KernelHost
import proofs.«161792_j28492813041739_2_alg».proof.Proof.LibTypedRef
import Idealize.ShloMosaic.Lib.StableHlo.Run

noncomputable section

namespace Cert.KernelIdeal.Pre

open Idealize.ShloMosaic Idealize.SL.Sem Idealize.ShloMosaic.StableHlo Cert.KernelIdeal Cert.KernelIdeal.Facts₀ Cert.KernelIdeal.Facts

variable (m : (ℓ : Loc nD τ sig) → Buf (Elt Ideal) ℓ) (c : Dev nD)

set_option maxHeartbeats 8000000 in
set_option maxRecDepth 65536 in
/-- The third window's array at region entry. -/
theorem V_v100 : (Gen.V m c main_v100 : S128x128.Idx → EReal) = WB (m ((c.tc : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  generalize hc1 : ((fun a b => concatenate S1650000 0 [⟨S1600000, a⟩, ⟨S50000, b⟩] concatenates_S1600000_S50000_S1650000_d0) : (⟨S1600000, .i32⟩ : BufTy).Contents (Elt Ideal) → (⟨S50000, .i32⟩ : BufTy).Contents (Elt Ideal) → (⟨S1650000, .i32⟩ : BufTy).Contents (Elt Ideal)) = cat1
  generalize hc2 : ((fun a b => concatenate S2x1650000 1 [⟨S2x1600000, a⟩, ⟨S2x50000, b⟩] concatenates_S2x1600000_S2x50000_S2x1650000_d1) : (⟨S2x1600000, .f32⟩ : BufTy).Contents (Elt Ideal) → (⟨S2x50000, .f32⟩ : BufTy).Contents (Elt Ideal) → (⟨S2x1650000, .f32⟩ : BufTy).Contents (Elt Ideal)) = cat2
  generalize hc3 : ((fun a b => concatenate S4x1650000 0 [⟨S2x1650000, a⟩, ⟨S2x1650000, b⟩] concatenates_S2x1650000_S2x1650000_S4x1650000_d0) : (⟨S2x1650000, .f32⟩ : BufTy).Contents (Elt Ideal) → (⟨S2x1650000, .f32⟩ : BufTy).Contents (Elt Ideal) → (⟨S4x1650000, .f32⟩ : BufTy).Contents (Elt Ideal)) = cat3
  after_results_simp
  subst hc1 hc2 hc3
  have s0 : ∀ h1 h2 h3 (v : main_v97.ty.Contents (Elt Ideal)),
      (TRef.of (sig := sig) (T := ⟨S2x2, .f32⟩) main_v97 h1 h2 h3).ofBuf (Val := Elt Ideal) v = (v : (⟨S2x2, .f32⟩ : BufTy).Contents (Elt Ideal)) := fun _ _ _ _ => rfl
  have s1 : ∀ h1 h2 h3 (v : main_v98.ty.Contents (Elt Ideal)),
      (TRef.of (sig := sig) (T := ⟨S64x64, .f32⟩) main_v98 h1 h2 h3).ofBuf (Val := Elt Ideal) v = (v : (⟨S64x64, .f32⟩ : BufTy).Contents (Elt Ideal)) := fun _ _ _ _ => rfl
  have s2 : ∀ h1 h2 h3 (v : (⟨S128x128, .f32⟩ : BufTy).Contents (Elt Ideal)),
      (TRef.of (sig := sig) (T := ⟨S128x128, .f32⟩) main_v99 h1 h2 h3).toBuf (Val := Elt Ideal) v = (v : main_v99.ty.Contents (Elt Ideal)) := fun _ _ _ _ => rfl
  simp only [Cert.Lib.TypedRef.ofBuf_toBuf, id, s0, s1, s2]
  unfold WB eye2
  rfl

set_option maxHeartbeats 8000000 in
set_option maxRecDepth 65536 in
/-- The fourth window's array at region entry. -/
theorem V_v103 : (Gen.V m c main_v103 : S128x128.Idx → EReal) = WB (m ((c.tc : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, List.flatten_cons, List.flatten_nil, List.append_nil, List.cons_append, List.nil_append]
  generalize hc1 : ((fun a b => concatenate S1650000 0 [⟨S1600000, a⟩, ⟨S50000, b⟩] concatenates_S1600000_S50000_S1650000_d0) : (⟨S1600000, .i32⟩ : BufTy).Contents (Elt Ideal) → (⟨S50000, .i32⟩ : BufTy).Contents (Elt Ideal) → (⟨S1650000, .i32⟩ : BufTy).Contents (Elt Ideal)) = cat1
  generalize hc2 : ((fun a b => concatenate S2x1650000 1 [⟨S2x1600000, a⟩, ⟨S2x50000, b⟩] concatenates_S2x1600000_S2x50000_S2x1650000_d1) : (⟨S2x1600000, .f32⟩ : BufTy).Contents (Elt Ideal) → (⟨S2x50000, .f32⟩ : BufTy).Contents (Elt Ideal) → (⟨S2x1650000, .f32⟩ : BufTy).Contents (Elt Ideal)) = cat2
  generalize hc3 : ((fun a b => concatenate S4x1650000 0 [⟨S2x1650000, a⟩, ⟨S2x1650000, b⟩] concatenates_S2x1650000_S2x1650000_S4x1650000_d0) : (⟨S2x1650000, .f32⟩ : BufTy).Contents (Elt Ideal) → (⟨S2x1650000, .f32⟩ : BufTy).Contents (Elt Ideal) → (⟨S4x1650000, .f32⟩ : BufTy).Contents (Elt Ideal)) = cat3
  after_results_simp
  subst hc1 hc2 hc3
  have s0 : ∀ h1 h2 h3 (v : main_v97.ty.Contents (Elt Ideal)),
      (TRef.of (sig := sig) (T := ⟨S2x2, .f32⟩) main_v97 h1 h2 h3).ofBuf (Val := Elt Ideal) v = (v : (⟨S2x2, .f32⟩ : BufTy).Contents (Elt Ideal)) := fun _ _ _ _ => rfl
  have s1 : ∀ h1 h2 h3 (v : main_v101.ty.Contents (Elt Ideal)),
      (TRef.of (sig := sig) (T := ⟨S64x64, .f32⟩) main_v101 h1 h2 h3).ofBuf (Val := Elt Ideal) v = (v : (⟨S64x64, .f32⟩ : BufTy).Contents (Elt Ideal)) := fun _ _ _ _ => rfl
  have s2 : ∀ h1 h2 h3 (v : (⟨S128x128, .f32⟩ : BufTy).Contents (Elt Ideal)),
      (TRef.of (sig := sig) (T := ⟨S128x128, .f32⟩) main_v102 h1 h2 h3).toBuf (Val := Elt Ideal) v = (v : main_v102.ty.Contents (Elt Ideal)) := fun _ _ _ _ => rfl
  simp only [Cert.Lib.TypedRef.ofBuf_toBuf, id, s0, s1, s2]
  unfold WB eye2
  rfl

end Cert.KernelIdeal.Pre

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.LibGatherMid.lean ====
/-
  Gathering along the MIDDLE axis of a rank-3 array, read at an index.

  A gather of an [B, N, C] operand at start indices [R, 1] whose slices are whole in the first and last axes and one
  wide in the middle one (offset axes 0 and 2 of the result, the middle axis collapsed, the start index naming the
  middle axis) gives an [B, R, C] array; its element (b, e, c) is the operand's element (b, clamp(idx e), c), where the
  start index of e is read as a signed word and clamped into [0, N − 1]. Generic in the four extents and in the element type.
-/
import Idealize.ShloMosaic.PureOps.Ideal
import Idealize.ShloMosaic.Lib.ValueIdx
import Idealize.ShloMosaic.Lib.Pipeline.Value
import proofs.«161792_j28492813041739_2_alg».proof.Proof.LibSegSum

noncomputable section

namespace Cert.LibGatherMid

open Idealize.ShloMosaic Idealize.ShloMosaic.ValueIdx Cert.LibSegSum

/-- Middle-axis slices of an [B, N, C] operand gathered at start indices [R, 1]: result [B, R, C]. -/
abbrev midDims (B N R C : Nat)
    (wf : GatherDims.WF ⟨3, ![B, N, C]⟩ ⟨2, ![R, 1]⟩ ⟨3, ![B, R, C]⟩ [0, 2] [1] [] [1] [] 1 ![B, 1, C]) :
    GatherDims ⟨3, ![B, N, C]⟩ ⟨2, ![R, 1]⟩ ⟨3, ![B, R, C]⟩ where
  offsetDims := [0, 2]
  collapsedSliceDims := [1]
  operandBatchingDims := []
  startIndicesBatchingDims := []
  startIndexMap := [1]
  indexVectorDim := 1
  sliceSizes := ![B, 1, C]
  wf := wf

/-- The gather reads the operand at (b, clamp(idx e), c). -/
theorem gather_mid_apply {α : Type} {B N R C : Nat} (hN : 0 < N)
    (wf : GatherDims.WF ⟨3, ![B, N, C]⟩ ⟨2, ![R, 1]⟩ ⟨3, ![B, R, C]⟩ [0, 2] [1] [] [1] [] 1 ![B, 1, C])
    (x : (⟨3, ![B, N, C]⟩ : Shape).Idx → α) (idx : IVec ⟨2, ![R, 1]⟩ 32) (b : Fin B) (e : Fin R) (c : Fin C) :
    Host.gather (midDims B N R C wf) x idx (ix3 b e c) = x (ix3 b (clampIx hN (idx (at0 e))) c) := by
  unfold Host.gather
  congr 1
  funext a
  refine Fin.ext ?_
  have hsi : (midDims B N R C wf).siIdx (ix3 b e c) ⟨List.idxOf (1 : Fin 3) (midDims B N R C wf).startIndexMap,
      List.idxOf_lt_length_iff.2 (List.mem_singleton.mpr rfl)⟩ = at0 e := by
    funext d; refine Fin.ext ?_
    match d with
    | ⟨0, _⟩ => rfl
    | ⟨1, _⟩ => rfl
  match a with
  | ⟨0, _⟩ =>
    show (midDims B N R C wf).start (ix3 b e c) idx 0 + (midDims B N R C wf).batchCoord (ix3 b e c) 0
      + (midDims B N R C wf).offCoord (ix3 b e c) 0 = _
    rw [GatherDims.batchCoord_eq_zero _ _ _ List.not_mem_nil]
    unfold GatherDims.start
    rw [dif_neg (show (0 : Fin 3) ∉ (midDims B N R C wf).startIndexMap from (by decide : (0 : Fin 3) ∉ ([1] : List (Fin 3))))]
    simp only [Nat.add_zero, Nat.zero_add]
    rfl
  | ⟨1, _⟩ =>
    show (midDims B N R C wf).start (ix3 b e c) idx 1 + (midDims B N R C wf).batchCoord (ix3 b e c) 1
      + (midDims B N R C wf).offCoord (ix3 b e c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N R C wf).startIndexMap from List.mem_singleton.mpr rfl)]
    rw [hsi]
    rfl
  | ⟨2, _⟩ =>
    show (midDims B N R C wf).start (ix3 b e c) idx 2 + (midDims B N R C wf).batchCoord (ix3 b e c) 2
      + (midDims B N R C wf).offCoord (ix3 b e c) 2 = _
    rw [GatherDims.batchCoord_eq_zero _ _ _ List.not_mem_nil]
    unfold GatherDims.start
    rw [dif_neg (show (2 : Fin 3) ∉ (midDims B N R C wf).startIndexMap from (by decide : (2 : Fin 3) ∉ ([1] : List (Fin 3))))]
    simp only [Nat.add_zero, Nat.zero_add]
    rfl

end Cert.LibGatherMid

end
-- ==== Proof.SpecMsg.lean ====
/-
  The message of an edge read at an index.

  msg b e o = norm e · ((1 − fFull b e) · Σ_i x b (node e) i · Wc o i  +  fFull b e · Σ_i x b (node e) i · Wd o i),
  where node e is the wrapped source index of edge e clamped into [0, N − 1] — the node every gather along the node
  axis reads for that edge. The three spreads read one entry of their operand, the word 0x3F800000 is 1, the gather
  along the node axis reads row node e, and x · Wᵀ at (b, n, o) is the sum over the feature axis.
-/
import proofs.«161792_j28492813041739_2_alg».proof.Proof.EdgeSpec
import proofs.«161792_j28492813041739_2_alg».proof.Proof.LibSegSum
import proofs.«161792_j28492813041739_2_alg».proof.Proof.LibExtReals
import proofs.«161792_j28492813041739_2_alg».proof.Proof.LibGatherMid
import Idealize.ShloMosaic.PureOps.Ideal.Laws
import Idealize.ShloMosaic.Lib.ValueIdx
import Idealize.ShloMosaic.Lib.Pipeline.Value

noncomputable section

open scoped BigOperators

namespace Cert.EdgeSpec

open Idealize.ShloMosaic Cert.ReferenceIdeal Cert.ReferenceIdeal.Facts₀ Cert.ReferenceIdeal.Facts

/-- The node edge e reads its features from: its wrapped source index, clamped into [0, N − 1]. -/
def node (ei : IVec S2x1600000 32) (e : Fin 1650000) : Fin 50000 :=
  Cert.LibSegSum.clampIx (by norm_num) (srcIdx ei (Cert.LibSegSum.at0 e))

private theorem lhs0 (i : S2x50000x64.Idx) (q : dot_S2x50000x64_S64x64_S2x50000x64_2_1_01_0_n_n.contr.Idx) : (dot_S2x50000x64_S64x64_S2x50000x64_2_1_01_0_n_n.lhsIdx i q 0).val = (i 0).val := by
  unfold DotDims.lhsIdx
  rw [dif_neg (show ¬(0 : Fin S2x50000x64.rank) ∈ dot_S2x50000x64_S64x64_S2x50000x64_2_1_01_0_n_n.lhsBatch by decide),
    dif_pos (show (0 : Fin S2x50000x64.rank) ∈ dot_S2x50000x64_S64x64_S2x50000x64_2_1_01_0_n_n.lhsNonContracting by decide)]
  rfl
private theorem lhs1 (i : S2x50000x64.Idx) (q : dot_S2x50000x64_S64x64_S2x50000x64_2_1_01_0_n_n.contr.Idx) : (dot_S2x50000x64_S64x64_S2x50000x64_2_1_01_0_n_n.lhsIdx i q 1).val = (i 1).val := by
  unfold DotDims.lhsIdx
  rw [dif_neg (show ¬(1 : Fin S2x50000x64.rank) ∈ dot_S2x50000x64_S64x64_S2x50000x64_2_1_01_0_n_n.lhsBatch by decide),
    dif_pos (show (1 : Fin S2x50000x64.rank) ∈ dot_S2x50000x64_S64x64_S2x50000x64_2_1_01_0_n_n.lhsNonContracting by decide)]
  rfl
private theorem rhs0 (i : S2x50000x64.Idx) (q : dot_S2x50000x64_S64x64_S2x50000x64_2_1_01_0_n_n.contr.Idx) : (dot_S2x50000x64_S64x64_S2x50000x64_2_1_01_0_n_n.rhsIdx i q 0).val = (i 2).val := by
  unfold DotDims.rhsIdx
  rw [dif_neg (show ¬(0 : Fin S64x64.rank) ∈ dot_S2x50000x64_S64x64_S2x50000x64_2_1_01_0_n_n.rhsBatch by decide),
    dif_pos (show (0 : Fin S64x64.rank) ∈ dot_S2x50000x64_S64x64_S2x50000x64_2_1_01_0_n_n.rhsNonContracting by decide)]
  rfl

/-- x · Wᵀ at (b, n, o): the sum over the feature axis. -/
theorem xw_apply (x : FVec Ideal S2x50000x64 .f32) (w : FVec Ideal S64x64 .f32) (b : Fin 2) (n : Fin 50000) (o : Fin 64) :
    xw x w (ValueIdx.ix3 b n o) = ∑ i : Fin 64, x (ValueIdx.ix3 b n i) * w (ValueIdx.ix2 o i) := by
  unfold xw
  simp only [Host.dotGeneral]
  rw [Ideal.dotGeneral_apply, ← Equiv.sum_comp (ValueIdx.contrEquiv1 dot_S2x50000x64_S64x64_S2x50000x64_2_1_01_0_n_n 64 rfl rfl).symm]
  refine Finset.sum_congr rfl fun k _ => ?_
  have hk := ValueIdx.contrEquiv1_symm_val dot_S2x50000x64_S64x64_S2x50000x64_2_1_01_0_n_n 64 rfl rfl k
  have el : dot_S2x50000x64_S64x64_S2x50000x64_2_1_01_0_n_n.lhsIdx (ValueIdx.ix3 b n o) ((ValueIdx.contrEquiv1 dot_S2x50000x64_S64x64_S2x50000x64_2_1_01_0_n_n 64 rfl rfl).symm k) = ValueIdx.ix3 b n k :=
    funext fun a => Fin.ext (by
      match a with
      | ⟨0, _⟩ => exact lhs0 _ _
      | ⟨1, _⟩ => exact lhs1 _ _
      | ⟨2, _⟩ => exact (dot_S2x50000x64_S64x64_S2x50000x64_2_1_01_0_n_n.lhsIdx_val_of_single rfl _ _).trans hk)
  have er : dot_S2x50000x64_S64x64_S2x50000x64_2_1_01_0_n_n.rhsIdx (ValueIdx.ix3 b n o) ((ValueIdx.contrEquiv1 dot_S2x50000x64_S64x64_S2x50000x64_2_1_01_0_n_n 64 rfl rfl).symm k) = ValueIdx.ix2 o k :=
    funext fun a => Fin.ext (by
      match a with
      | ⟨0, _⟩ => exact rhs0 _ _
      | ⟨1, _⟩ => exact (dot_S2x50000x64_S64x64_S2x50000x64_2_1_01_0_n_n.rhsIdx_val_of_single rfl _ _).trans hk)
  rw [el, er]

/-- A vector over the edges spread to [2, E', 64] through [1, E', 1], read at (b, e, o): the vector's entry e. -/
private theorem spread_edge (v : FVec Ideal S1650000 .f32) (b : Fin 2) (e : Fin 1650000) (o : Fin 64) :
    broadcastInDim S2x1650000x64 ![0, 1, 2] bcast_S1x1650000x1_S2x1650000x64_0_1_2
      (broadcastInDim S1x1650000x1 ![1] bcast_S1650000_S1x1650000x1_1 v) (ValueIdx.ix3 b e o) = v (ValueIdx.ix1 e) := by
  have h1 : broadcastInDim S2x1650000x64 ![0, 1, 2] bcast_S1x1650000x1_S2x1650000x64_0_1_2
      (broadcastInDim S1x1650000x1 ![1] bcast_S1650000_S1x1650000x1_1 v) (ValueIdx.ix3 b e o)
        = broadcastInDim S1x1650000x1 ![1] bcast_S1650000_S1x1650000x1_1 v (ValueIdx.ix3 (⟨0, Nat.one_pos⟩ : Fin 1) e (⟨0, Nat.one_pos⟩ : Fin 1)) := by
    refine broadcastInDim_apply ![0, 1, 2] bcast_S1x1650000x1_S2x1650000x64_0_1_2
      (broadcastInDim S1x1650000x1 ![1] bcast_S1650000_S1x1650000x1_1 v) (ValueIdx.ix3 b e o)
      (ValueIdx.ix3 (⟨0, Nat.one_pos⟩ : Fin 1) e (⟨0, Nat.one_pos⟩ : Fin 1)) ?_
    intro a
    match a with
    | ⟨0, _⟩ => rfl
    | ⟨1, _⟩ => rfl
    | ⟨2, _⟩ => rfl
  have h2 : broadcastInDim S1x1650000x1 ![1] bcast_S1650000_S1x1650000x1_1 v (ValueIdx.ix3 (⟨0, Nat.one_pos⟩ : Fin 1) e (⟨0, Nat.one_pos⟩ : Fin 1))
      = v (ValueIdx.ix1 e) := by
    refine broadcastInDim_apply ![1] bcast_S1650000_S1x1650000x1_1 v (ValueIdx.ix3 (⟨0, Nat.one_pos⟩ : Fin 1) e (⟨0, Nat.one_pos⟩ : Fin 1)) (ValueIdx.ix1 e) ?_
    intro a
    match a with
    | ⟨0, _⟩ => rfl
  exact h1.trans h2

/-- A [2, E'] factor spread over the 64 output features, read at (b, e, o): the factor at (b, e). -/
private theorem perEdge_apply (f : FVec Ideal S2x1650000 .f32) (b : Fin 2) (e : Fin 1650000) (o : Fin 64) :
    perEdge f (ValueIdx.ix3 b e o) = f (ValueIdx.ix2 b e) := by
  have h1 : broadcastInDim S2x1650000x64 ![0, 1, 2] bcast_S2x1650000x1_S2x1650000x64_0_1_2
      (broadcastInDim S2x1650000x1 ![0, 1] bcast_S2x1650000_S2x1650000x1_0_1 f) (ValueIdx.ix3 b e o)
        = broadcastInDim S2x1650000x1 ![0, 1] bcast_S2x1650000_S2x1650000x1_0_1 f (ValueIdx.ix3 b e (⟨0, Nat.one_pos⟩ : Fin 1)) := by
    refine broadcastInDim_apply ![0, 1, 2] bcast_S2x1650000x1_S2x1650000x64_0_1_2
      (broadcastInDim S2x1650000x1 ![0, 1] bcast_S2x1650000_S2x1650000x1_0_1 f) (ValueIdx.ix3 b e o)
      (ValueIdx.ix3 b e (⟨0, Nat.one_pos⟩ : Fin 1)) ?_
    intro a
    match a with
    | ⟨0, _⟩ => rfl
    | ⟨1, _⟩ => rfl
    | ⟨2, _⟩ => rfl
  have h2 : broadcastInDim S2x1650000x1 ![0, 1] bcast_S2x1650000_S2x1650000x1_0_1 f (ValueIdx.ix3 b e (⟨0, Nat.one_pos⟩ : Fin 1))
      = f (ValueIdx.ix2 b e) := by
    refine broadcastInDim_apply ![0, 1] bcast_S2x1650000_S2x1650000x1_0_1 f (ValueIdx.ix3 b e (⟨0, Nat.one_pos⟩ : Fin 1)) (ValueIdx.ix2 b e) ?_
    intro a
    match a with
    | ⟨0, _⟩ => rfl
    | ⟨1, _⟩ => rfl
  exact h1.trans h2

/-- A gather of a [2, N, 64] array along the node axis at an index column, read at (b, e, o): the array at
    (b, clamp(idx e), o). -/
private theorem gather_node (y : FVec Ideal S2x50000x64 .f32) (idx : IVec S1650000x1 32) (b : Fin 2) (e : Fin 1650000) (o : Fin 64) :
    Host.gather gather_S2x50000x64_S1650000x1_S2x1650000x64_02_1_n_n_1_1_2164 y idx (ValueIdx.ix3 b e o)
      = y (ValueIdx.ix3 b (Cert.LibSegSum.clampIx (N := 50000) (by norm_num) (idx (Cert.LibSegSum.at0 e))) o) := by
  have hG : gather_S2x50000x64_S1650000x1_S2x1650000x64_02_1_n_n_1_1_2164 = Cert.LibGatherMid.midDims 2 50000 1650000 64 gather_S2x50000x64_S1650000x1_S2x1650000x64_02_1_n_n_1_1_2164_wf := rfl
  rw [hG]
  exact Cert.LibGatherMid.gather_mid_apply (by norm_num) _ y idx b e o

/-- The scalar 1 spread over [2, E'] is 1 everywhere. -/
private theorem ones_apply (j : S2x1650000.Idx) :
    broadcastInDim S2x1650000 ![] bcast_S_S2x1650000 (constant (F := Ideal) S_ .f32 0x3F800000#32) j = (1 : EReal) := by
  rw [broadcastInDim_apply ![] bcast_S_S2x1650000 _ j ValueIdx.ix0 fun d => d.elim0]
  exact Cert.Net.one_word

/-- The message at (b, e, o). -/
theorem msg_apply (x : FVec Ideal S2x50000x64 .f32) (ei : IVec S2x1600000 32) (fdo : FVec Ideal S1600000 .f32)
    (fl : FVec Ideal S2x50000 .f32) (wc wd : FVec Ideal S64x64 .f32) (b : Fin 2) (e : Fin 1650000) (o : Fin 64) :
    msg x ei fdo fl wc wd (ValueIdx.ix3 b e o)
      = norm ei (ValueIdx.ix1 e)
        * (((1 : EReal) - fFull ei fdo fl (ValueIdx.ix2 b e)) * (∑ i : Fin 64, x (ValueIdx.ix3 b (node ei e) i) * wc (ValueIdx.ix2 o i))
          + fFull ei fdo fl (ValueIdx.ix2 b e) * (∑ i : Fin 64, x (ValueIdx.ix3 b (node ei e) i) * wd (ValueIdx.ix2 o i))) := by
  unfold msg node
  rw [ValueIdx.mulf_apply, ValueIdx.addf_apply, ValueIdx.mulf_apply, ValueIdx.mulf_apply, spread_edge, perEdge_apply, perEdge_apply,
    gather_node, gather_node, ValueIdx.subf_apply, ones_apply, xw_apply, xw_apply]

/-- A row of x against a row of W, all entries real: the sum is real. -/
theorem xw_sum_real (x : FVec Ideal S2x50000x64 .f32) (w : FVec Ideal S64x64 .f32)
    (hx : ∀ i, ∃ r : ℝ, x i = (r : EReal)) (hw : ∀ i, ∃ r : ℝ, w i = (r : EReal)) (b : Fin 2) (n : Fin 50000) (o : Fin 64) :
    ∃ r : ℝ, (∑ i : Fin 64, x (ValueIdx.ix3 b n i) * w (ValueIdx.ix2 o i)) = (r : EReal) :=
  Cert.Net.real_sum _ _ fun i => Cert.Net.real_mul (hx _) (hw _)

end Cert.EdgeSpec

end
-- ==== Proof.KernelStages.lean ====
/-
  The launch arrays of the edge kernel read at an index.

  * XG at (e, k), e one of the 1650000 edges: the feature k % 64 of batch k / 64 of the node the source gather reads for e
    (the padding is never met; a gather of whole rows reads the row of the clamped index; the packing [N, 2, 64] → [N, 128]
    puts (b, i) at lane 64·b + i);
  * AB at (b, e) and (2 + b, e): norm e · (1 − fFull (b, e)) and norm e · fFull (b, e);
  * WB w at (k, l): [k / 64 = l / 64] · w (l % 64, k % 64).
-/
import proofs.«161792_j28492813041739_2_alg».proof.Proof.KernelHost
import proofs.«161792_j28492813041739_2_alg».proof.Proof.SpecMsg
import proofs.«161792_j28492813041739_2_alg».proof.Proof.LibSegSum
import proofs.«161792_j28492813041739_2_alg».proof.Proof.LibExtReals
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.KernelIdeal.Pre

open Idealize.ShloMosaic Idealize.ShloMosaic.ValueIdx Cert.KernelIdeal Cert.KernelIdeal.Facts₀ Cert.KernelIdeal.Facts

/-- Batch of a lane. -/
abbrev laneB (k : Fin 128) : Fin 2 := ⟨k.val / 64, by have := k.isLt; omega⟩
/-- Feature of a lane. -/
abbrev laneI (k : Fin 128) : Fin 64 := ⟨k.val % 64, Nat.mod_lt _ (by norm_num)⟩
/-- An edge as a row of the padded arrays. -/
abbrev padE (e : Fin 1650000) : Fin 1650688 := ⟨e.val, by have := e.isLt; omega⟩

theorem xPacked_apply (x : FVec Ideal S2x50000x64 .f32) (n : Fin 50000) (k : Fin 128) :
    xPacked x (ix2 n k) = x (ix3 (laneB k) n (laneI k)) := by
  unfold xPacked
  rw [truncf_apply]
  rw [shapeCast_apply _ shapeCasts_S50000x2x64_S50000x128 (ix2 n k) (ix3 n (laneB k) (laneI k)) (by
    rw [Shape.rowMajor_val_three, Shape.rowMajor_val_two]
    show (n.val * 2 + k.val / 64) * 64 + k.val % 64 = n.val * 128 + k.val
    omega)]
  exact transpose_apply _ x transposes_S2x50000x64_S50000x2x64_1_0_2 _ _ fun b =>
    match b with | ⟨0, _⟩ => rfl | ⟨1, _⟩ => rfl | ⟨2, _⟩ => rfl

theorem XG_apply (x : FVec Ideal S2x50000x64 .f32) (ei : IVec S2x1600000 32) (e : Fin 1650000) (k : Fin 128) :
    XG x ei (ix2 (padE e) k) = x (ix3 (laneB k) (Cert.EdgeSpec.node ei e) (laneI k)) := by
  unfold XG
  rw [pad_apply_of_inside ![0, 0] ![688, 0] ![0, 0] _ _ pads_S1650000x128_S1650688x128_06880_000 h_S_ (ix2 (padE e) k) (ix2 e k)
    (fun a => match a with
      | ⟨0, _⟩ => by show e.val = 0 + e.val * (0 + 1); omega
      | ⟨1, _⟩ => by show k.val = 0 + k.val * (0 + 1); omega)]
  have hd : gather_S50000x128_S1650000x1_S1650000x128_1_0_n_n_0_1_1128
      = Cert.LibSegSum.rowsDims 50000 1650000 128 gather_S50000x128_S1650000x1_S1650000x128_1_0_n_n_0_1_1128_wf := rfl
  rw [hd, Cert.LibSegSum.gather_rows_apply (by norm_num : 0 < 50000)]
  exact xPacked_apply x _ k

theorem spread_apply (v : FVec Ideal S1650000 .f32) (b : Fin 2) (e : Fin 1650000) : spread v (ix2 b e) = v (ix1 e) :=
  Cert.LibSegSum.bcast_row_apply bcast_S1650000_S1x1650000_1 bcast_S1x1650000_S2x1650000_0_1 v b e

theorem one_bcast (j : S2x1650000.Idx) :
    broadcastInDim S2x1650000 ![] bcast_S_S2x1650000 (constant (F := Ideal) S_ .f32 0x3F800000#32) j = (1 : EReal) := by
  rw [broadcastInDim_scalar_apply]
  exact Cert.Net.one_word

theorem AB_lo (ei : IVec S2x1600000 32) (fdo : FVec Ideal S1600000 .f32) (fl : FVec Ideal S2x50000 .f32) (b : Fin 2) (e : Fin 1650000) :
    AB ei fdo fl (ix2 (⟨b.val, by omega⟩ : Fin 4) (padE e))
      = Cert.EdgeSpec.norm ei (ix1 e) * ((1 : EReal) - Cert.EdgeSpec.fFull ei fdo fl (ix2 b e)) := by
  unfold AB
  rw [pad_apply_of_inside ![0, 0] ![0, 688] ![0, 0] _ _ pads_S4x1650000_S4x1650688_000_06880 h_S_ (ix2 (⟨b.val, by omega⟩ : Fin 4) (padE e))
    (ix2 (⟨b.val, by omega⟩ : Fin 4) e)
    (fun a => match a with
      | ⟨0, _⟩ => by show b.val = 0 + b.val * (0 + 1); omega
      | ⟨1, _⟩ => by show e.val = 0 + e.val * (0 + 1); omega)]
  rw [concatenate_pair_apply_left (t := S4x1650000) (s₁ := S2x1650000) (s₂ := S2x1650000) (0 : Fin 2) _ _ concatenates_S2x1650000_S2x1650000_S4x1650000_d0 (ix2 (⟨b.val, by omega⟩ : Fin 4) e) rfl
    (ix2 b e) (fun d => match d with | ⟨0, _⟩ => rfl | ⟨1, _⟩ => rfl)]
  rw [mulf_apply, spread_apply, subf_apply, one_bcast]

theorem AB_hi (ei : IVec S2x1600000 32) (fdo : FVec Ideal S1600000 .f32) (fl : FVec Ideal S2x50000 .f32) (b : Fin 2) (e : Fin 1650000) :
    AB ei fdo fl (ix2 (⟨b.val + 2, by omega⟩ : Fin 4) (padE e))
      = Cert.EdgeSpec.norm ei (ix1 e) * Cert.EdgeSpec.fFull ei fdo fl (ix2 b e) := by
  unfold AB
  rw [pad_apply_of_inside ![0, 0] ![0, 688] ![0, 0] _ _ pads_S4x1650000_S4x1650688_000_06880 h_S_ (ix2 (⟨b.val + 2, by omega⟩ : Fin 4) (padE e))
    (ix2 (⟨b.val + 2, by omega⟩ : Fin 4) e)
    (fun a => match a with
      | ⟨0, _⟩ => by show b.val + 2 = 0 + (b.val + 2) * (0 + 1); omega
      | ⟨1, _⟩ => by show e.val = 0 + e.val * (0 + 1); omega)]
  rw [concatenate_pair_apply_right (t := S4x1650000) (s₁ := S2x1650000) (s₂ := S2x1650000) (0 : Fin 2) _ _ concatenates_S2x1650000_S2x1650000_S4x1650000_d0 (ix2 (⟨b.val + 2, by omega⟩ : Fin 4) e) rfl rfl
    (ix2 b e) (fun d hd => match d with | ⟨0, _⟩ => absurd rfl hd | ⟨1, _⟩ => rfl) (by show b.val + 2 = b.val + 2; rfl)]
  rw [mulf_apply, spread_apply]

theorem eye_word : ∀ p q : Fin 2,
    IntOp.cmpi .eq (IntOp.addi (BitVec.ofNat 32 p.val) 0#32) (BitVec.ofNat 32 q.val) = if p = q then 1#1 else 0#1 := by
  decide

theorem eye2_apply (p q : Fin 2) : eye2 (ix2 p q) = if p = q then (1 : EReal) else 0 := by
  show (((IntOp.cmpi .eq (IntOp.addi (BitVec.ofNat 32 p.val) 0#32) (BitVec.ofNat 32 q.val)).toNat : ℝ) : EReal) = _
  rw [eye_word]
  split <;> simp

theorem WB_apply (w : FVec Ideal S64x64 .f32) (k l : Fin 128) :
    WB w (ix2 k l) = (if k.val / 64 = l.val / 64 then (1 : EReal) else 0) * w (ix2 (laneI l) (laneI k)) := by
  unfold WB
  rw [truncf_apply]
  rw [shapeCast_apply _ shapeCasts_S2x64x2x64_S128x128 (ix2 k l) (ix4 (laneB k) (laneI k) (laneB l) (laneI l)) (by
    rw [Shape.rowMajor_val_four, Shape.rowMajor_val_two]
    show ((k.val / 64 * 64 + k.val % 64) * 2 + l.val / 64) * 64 + l.val % 64 = k.val * 128 + l.val
    omega)]
  rw [mulf_apply]
  have h1 : broadcastInDim S2x64x2x64 ![0, 1, 2, 3] bcast_S2x1x2x1_S2x64x2x64_0_1_2_3
        (broadcastInDim S2x1x2x1 ![0, 2] bcast_S2x2_S2x1x2x1_0_2 eye2) (ix4 (laneB k) (laneI k) (laneB l) (laneI l))
      = eye2 (ix2 (laneB k) (laneB l)) :=
    (broadcastInDim_apply _ bcast_S2x1x2x1_S2x64x2x64_0_1_2_3 _ _ (ix4 (laneB k) (0 : Fin 1) (laneB l) (0 : Fin 1)) (fun a =>
      match a with
      | ⟨0, _⟩ => by show (laneB k).val = if (2 : Nat) = 1 then 0 else (laneB k).val; rw [if_neg (by decide)]
      | ⟨1, _⟩ => by show 0 = if (1 : Nat) = 1 then 0 else (laneI k).val; rw [if_pos rfl]
      | ⟨2, _⟩ => by show (laneB l).val = if (2 : Nat) = 1 then 0 else (laneB l).val; rw [if_neg (by decide)]
      | ⟨3, _⟩ => by show 0 = if (1 : Nat) = 1 then 0 else (laneI l).val; rw [if_pos rfl])).trans
    (broadcastInDim_apply _ bcast_S2x2_S2x1x2x1_0_2 eye2 _ (ix2 (laneB k) (laneB l)) (fun a =>
      match a with
      | ⟨0, _⟩ => by show (laneB k).val = if (2 : Nat) = 1 then 0 else (laneB k).val; rw [if_neg (by decide)]
      | ⟨1, _⟩ => by show (laneB l).val = if (2 : Nat) = 1 then 0 else (laneB l).val; rw [if_neg (by decide)]))
  have h2 : broadcastInDim S2x64x2x64 ![0, 1, 2, 3] bcast_S1x64x1x64_S2x64x2x64_0_1_2_3
        (broadcastInDim S1x64x1x64 ![1, 3] bcast_S64x64_S1x64x1x64_1_3 (transpose S64x64 [1, 0] w transposes_S64x64_S64x64_1_0))
        (ix4 (laneB k) (laneI k) (laneB l) (laneI l))
      = w (ix2 (laneI l) (laneI k)) :=
    ((broadcastInDim_apply _ bcast_S1x64x1x64_S2x64x2x64_0_1_2_3 _ _ (ix4 (0 : Fin 1) (laneI k) (0 : Fin 1) (laneI l)) (fun a =>
      match a with
      | ⟨0, _⟩ => by show 0 = if (1 : Nat) = 1 then 0 else (laneB k).val; rw [if_pos rfl]
      | ⟨1, _⟩ => by show (laneI k).val = if (64 : Nat) = 1 then 0 else (laneI k).val; rw [if_neg (by decide)]
      | ⟨2, _⟩ => by show 0 = if (1 : Nat) = 1 then 0 else (laneB l).val; rw [if_pos rfl]
      | ⟨3, _⟩ => by show (laneI l).val = if (64 : Nat) = 1 then 0 else (laneI l).val; rw [if_neg (by decide)])).trans
    (broadcastInDim_apply _ bcast_S64x64_S1x64x1x64_1_3 _ _ (ix2 (laneI k) (laneI l)) (fun a =>
      match a with
      | ⟨0, _⟩ => by show (laneI k).val = if (64 : Nat) = 1 then 0 else (laneI k).val; rw [if_neg (by decide)]
      | ⟨1, _⟩ => by show (laneI l).val = if (64 : Nat) = 1 then 0 else (laneI l).val; rw [if_neg (by decide)]))).trans
    (transpose_ix2_apply w transposes_S64x64_S64x64_1_0 (laneI k) (laneI l))
  rw [h1, h2, eye2_apply]
  have hb : (laneB k = laneB l) ↔ (k.val / 64 = l.val / 64) := ⟨fun h => congrArg Fin.val h, fun h => Fin.ext h⟩
  rw [if_congr hb rfl rfl]

end Cert.KernelIdeal.Pre

end
-- ==== Proof.KernelTail.lean ====
/-
  The lines after the region: the kernel's result array [1650688, 128] is cut back to the 1650000 edges, its 128 lanes
  unpacked into (batch, feature), the batch axis moved to the front, and the rows are added into their target nodes and
  the bias added: the specification's `tail` of the re-laid array.  At an index the re-laid array is
        msgK A (b, e, o) = A (e, 64·b + o).
-/
import proofs.«161792_j28492813041739_2_alg».proof.Proof.Gen.KernelIdeal.Frame
import proofs.«161792_j28492813041739_2_alg».proof.Proof.KernelEntryX
import proofs.«161792_j28492813041739_2_alg».proof.Proof.KernelStages
import Idealize.ShloMosaic.Lib.StableHlo.Run

noncomputable section

namespace Cert.KernelIdeal.Tail

open Idealize.ShloMosaic Idealize.ShloMosaic.ValueIdx Idealize.SL.Sem Idealize.ShloMosaic.StableHlo Cert.KernelIdeal Cert.KernelIdeal.Facts₀ Cert.KernelIdeal.Facts

variable (m : (ℓ : Loc nD τ sig) → Buf (Elt Ideal) ℓ) (ρ : Dev nD → PrngReg)

/-- The kernel's result array re-laid as [2, 1650000, 64]. -/
def msgK (A : FVec Ideal S1650688x128 .bf16) : FVec Ideal S2x1650000x64 .f32 :=
  extf .f32 (transpose S2x1650000x64 [1, 0, 2]
    (shapeCast S1650000x2x64 (extractStridedSlice S1650000x128 ![0, 0] A slices_S1650688x128_S1650000x128_0_0) shapeCasts_S1650000x128_S1650000x2x64)
    transposes_S1650000x2x64_S2x1650000x64_1_0_2) bitsLt_bf16_f32

/-- Lane 64·b + o. -/
abbrev lane (b : Fin 2) (o : Fin 64) : Fin 128 := ⟨64 * b.val + o.val, by have := b.isLt; have := o.isLt; omega⟩

theorem msgK_apply (A : FVec Ideal S1650688x128 .bf16) (b : Fin 2) (e : Fin 1650000) (o : Fin 64) :
    msgK A (ix3 b e o) = A (ix2 (Pre.padE e) (lane b o)) := by
  unfold msgK
  rw [extf_apply]
  rw [transpose_apply _ _ transposes_S1650000x2x64_S2x1650000x64_1_0_2 (ix3 b e o) (ix3 e b o)
    (fun d => match d with | ⟨0, _⟩ => rfl | ⟨1, _⟩ => rfl | ⟨2, _⟩ => rfl)]
  rw [shapeCast_apply _ shapeCasts_S1650000x128_S1650000x2x64 (ix3 e b o) (ix2 e (lane b o)) (by
    rw [Shape.rowMajor_val_three, Shape.rowMajor_val_two]
    show e.val * 128 + (64 * b.val + o.val) = (e.val * 2 + b.val) * 64 + o.val
    omega)]
  exact extractStridedSlice_apply ![0, 0] A slices_S1650688x128_S1650000x128_0_0 (ix2 e (lane b o)) (ix2 (Pre.padE e) (lane b o))
    (fun a => match a with
      | ⟨0, _⟩ => by show e.val = 0 + e.val; omega
      | ⟨1, _⟩ => by show 64 * b.val + o.val = 0 + (64 * b.val + o.val); omega)

set_option maxHeartbeats 4000000 in
set_option maxRecDepth 65536 in
/-- The lines after the region, from ANY contents W: the specification's tail of the re-laid result array, at the
    wrapped target column, with the bias argument. -/
theorem after_tail (W : Valuation τ sig (Elt Ideal)) :
    (StableHlo.after (Gen.hostOps1 (F := Ideal)) W (Proc.devRef .tc main_v119) : S2x50000x64.Idx → EReal)
      = Cert.EdgeSpec.tail (Cert.EdgeSpec.wrapE (W (Proc.devRef .tc main_v6))) (msgK (W (Proc.devRef .tc main_v104))) (W (Proc.devRef .tc main_arg6)) := by
  simp only [Gen.hostOps1]
  after_results_simp
  unfold Cert.EdgeSpec.tail Cert.EdgeSpec.wrapE msgK
  rfl

/-- The result buffer after the whole run, in terms of the region's result array. -/
theorem tail_eq (c : Dev nD) :
    (Pipeline.afterTail₀ cfgs (Gen.dats m) 0 (Gen.V0 m) [Gen.hostOps1] c main_v119 : S2x50000x64.Idx → EReal)
      = Cert.EdgeSpec.tail (Cert.EdgeSpec.tgtIdx (m ((c.tc : Thread nD τ).loc main_arg1)))
          (msgK ((Gen.dats m 0 c).arrAt 4 cfg0.N)) (m ((c.tc : Thread nD τ).loc main_arg6)) := by
  unfold Pipeline.afterTail₀
  show StableHlo.after (Gen.hostOps1 (F := Ideal)) _ (Proc.devRef .tc main_v119) = _
  rw [after_tail]
  have h104 := Pipeline.withArrays_arr spec0 Gen.launch0.win.arr_inj c (Gen.V0 m c) (fun w => (Gen.dats m 0 c).arrAt w cfg0.N) 4
  have h6 := Pipeline.withArrays_of_ne spec0 c (Gen.V0 m c) (fun w => (Gen.dats m 0 c).arrAt w cfg0.N) main_v6
    (by exact (by decide : ∀ w, Pipeline.arrRef spec0 w ≠ main_v6))
  have ha6 := Pipeline.withArrays_of_ne spec0 c (Gen.V0 m c) (fun w => (Gen.dats m 0 c).arrAt w cfg0.N) main_arg6
    (by exact (by decide : ∀ w, Pipeline.arrRef spec0 w ≠ main_arg6))
  have e6 : Gen.V0 m c (Proc.devRef .tc main_v6) = Cert.EdgeSpec.withLoops (Cert.EdgeSpec.row1 (m ((c.tc : Thread nD τ).loc main_arg1))) :=
    Pre.V_v6 m c
  have ea6 : Gen.V0 m c (Proc.devRef .tc main_arg6) = m ((c.tc : Thread nD τ).loc main_arg6) := Gen.V_main_arg6 m c
  rw [h6, ha6, e6, ea6]
  have h104' : Pipeline.withArrays spec0 c (Gen.V0 m c) (fun w => (Gen.dats m 0 c).arrAt w cfg0.N) (Proc.devRef .tc main_v104)
      = (Gen.dats m 0 c).arrAt 4 cfg0.N := h104
  rw [h104']
  rfl

/-- The frame run re-posted at the result buffer: the lines after the region applied to the region's arrays, and the
    arguments unchanged. -/
theorem run_tail : θ_run (defs (F := Ideal)) (onTc (τ := τ) (main (F := Ideal))) ⟨m, fun _ => 0, ρ⟩ (fun r => ∀ c : Dev nD,
      r.2.mem ((c.tc : Thread nD τ).loc main_v119) = Pipeline.afterTail₀ cfgs (Gen.dats m) 0 (Gen.V0 m) [Gen.hostOps1] c main_v119
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_v119 (Pipeline.mem_restRefs_of main_v119 (by decide) (by decide)),
      (((h c).2 main_arg0 (Pipeline.mem_restRefs_of main_arg0 (by decide) (by decide))).trans (Gen.W_main_arg0 m (Gen.dats m) c)),
      (((h c).2 main_arg1 (Pipeline.mem_restRefs_of main_arg1 (by decide) (by decide))).trans (Gen.W_main_arg1 m (Gen.dats m) c)),
      (((h c).2 main_arg2 (Pipeline.mem_restRefs_of main_arg2 (by decide) (by decide))).trans (Gen.W_main_arg2 m (Gen.dats m) c)),
      (((h c).2 main_arg3 (Pipeline.mem_restRefs_of main_arg3 (by decide) (by decide))).trans (Gen.W_main_arg3 m (Gen.dats m) c)),
      (((h c).2 main_arg4 (Pipeline.mem_restRefs_of main_arg4 (by decide) (by decide))).trans (Gen.W_main_arg4 m (Gen.dats m) c)),
      (((h c).2 main_arg5 (Pipeline.mem_restRefs_of main_arg5 (by decide) (by decide))).trans (Gen.W_main_arg5 m (Gen.dats m) c)),
      (((h c).2 main_arg6 (Pipeline.mem_restRefs_of main_arg6 (by decide) (by decide))).trans (Gen.W_main_arg6 m (Gen.dats m) c))⟩)
    (Gen.run_main m ρ)

end Cert.KernelIdeal.Tail

end
-- ==== Proof.BlendAlgebra.lean ====
/-
  The two laws that join the two arrangements of an edge's message, for real entries inside the extended reals.

  * The blend.  With a real weight n, a real blend factor f and two real values c, d,
        n · ((1 − f) · c + f · d)  =  (n · (1 − f)) · c + (n · f) · d.
    On the extended reals a product does not distribute over a sum in general (∞ − ∞), so the entries must be real.

  * The block-diagonal product.  A row of 128 = 2 · 64 entries, entry k holding X (k / 64) (k % 64), multiplied into
    the column (b, o) of the block-diagonal matrix whose entry at row k is  [k / 64 = b] · W (k % 64),  is the sum over the
    64 entries of block b alone:
        Σ_{k < 128} X (k / 64) (k % 64) · ([k / 64 = b] · W (k % 64))  =  Σ_{i < 64} X b i · W i.
    The other block meets the factor 0, and 0 · x = 0 needs x real.
-/
import proofs.«161792_j28492813041739_2_alg».proof.Proof.LibExtReals

noncomputable section

open scoped BigOperators

namespace Cert.Blend

/-- n · ((1 − f) · c + f · d) = (n · (1 − f)) · c + (n · f) · d for real n, f, c, d. -/
theorem blend_real (n f c d : ℝ) :
    (n : EReal) * (((1 : EReal) - (f : EReal)) * (c : EReal) + (f : EReal) * (d : EReal))
      = ((n : EReal) * ((1 : EReal) - (f : EReal))) * (c : EReal) + ((n : EReal) * (f : EReal)) * (d : EReal) := by
  have h : n * ((1 - f) * c + f * d) = (n * (1 - f)) * c + (n * f) * d := by ring
  exact_mod_cast h

/-- The same for extended reals known to be real. -/
theorem blend {n f c d : EReal} (hn : ∃ r : ℝ, n = (r : EReal)) (hf : ∃ r : ℝ, f = (r : EReal))
    (hc : ∃ r : ℝ, c = (r : EReal)) (hd : ∃ r : ℝ, d = (r : EReal)) :
    n * (((1 : EReal) - f) * c + f * d) = (n * ((1 : EReal) - f)) * c + (n * f) * d := by
  obtain ⟨n, rfl⟩ := hn; obtain ⟨f, rfl⟩ := hf; obtain ⟨c, rfl⟩ := hc; obtain ⟨d, rfl⟩ := hd
  exact blend_real n f c d

/-- The block-diagonal product over the reals. -/
theorem block_sum_real (X : Fin 2 → Fin 64 → ℝ) (W : Fin 64 → ℝ) (b : Fin 2) :
    ∑ k : Fin 128, X ⟨k.val / 64, by have := k.isLt; omega⟩ ⟨k.val % 64, Nat.mod_lt _ (by norm_num)⟩
        * ((if k.val / 64 = b.val then (1 : ℝ) else 0) * W ⟨k.val % 64, Nat.mod_lt _ (by norm_num)⟩)
      = ∑ i : Fin 64, X b i * W i := by
  rw [← Equiv.sum_comp (finProdFinEquiv (m := 2) (n := 64)), Fintype.sum_prod_type]
  have hdiv : ∀ (p : Fin 2) (i : Fin 64), (finProdFinEquiv (p, i)).val / 64 = p.val := fun p i => by
    show (i.val + 64 * p.val) / 64 = p.val
    have := i.isLt; omega
  have hmod : ∀ (p : Fin 2) (i : Fin 64), (finProdFinEquiv (p, i)).val % 64 = i.val := fun p i => by
    show (i.val + 64 * p.val) % 64 = i.val
    have := i.isLt; omega
  have hterm : ∀ (p : Fin 2) (i : Fin 64),
      X ⟨(finProdFinEquiv (p, i)).val / 64, by have := (finProdFinEquiv (p, i)).isLt; omega⟩
          ⟨(finProdFinEquiv (p, i)).val % 64, Nat.mod_lt _ (by norm_num)⟩
        * ((if (finProdFinEquiv (p, i)).val / 64 = b.val then (1 : ℝ) else 0)
            * W ⟨(finProdFinEquiv (p, i)).val % 64, Nat.mod_lt _ (by norm_num)⟩)
      = if p = b then X p i * W i else 0 := fun p i => by
    have e1 : (⟨(finProdFinEquiv (p, i)).val / 64, by have := (finProdFinEquiv (p, i)).isLt; omega⟩ : Fin 2) = p :=
      Fin.ext (hdiv p i)
    have e2 : (⟨(finProdFinEquiv (p, i)).val % 64, Nat.mod_lt _ (by norm_num)⟩ : Fin 64) = i := Fin.ext (hmod p i)
    rw [e1, e2, hdiv p i]
    by_cases hpb : p = b
    · rw [if_pos hpb, if_pos (congrArg Fin.val hpb), one_mul]
    · rw [if_neg hpb, if_neg (fun h => hpb (Fin.ext h)), zero_mul, mul_zero]
  simp only [hterm]
  rw [Finset.sum_eq_single b (fun p _ hp => by simp [hp]) (fun h => absurd (Finset.mem_univ b) h)]
  simp

/-- The block-diagonal product for extended reals known to be real; the 0 and 1 of the selector are the extended reals'. -/
theorem block_sum (X : Fin 2 → Fin 64 → EReal) (W : Fin 64 → EReal)
    (hX : ∀ p i, ∃ r : ℝ, X p i = (r : EReal)) (hW : ∀ i, ∃ r : ℝ, W i = (r : EReal)) (b : Fin 2) :
    ∑ k : Fin 128, X ⟨k.val / 64, by have := k.isLt; omega⟩ ⟨k.val % 64, Nat.mod_lt _ (by norm_num)⟩
        * ((if k.val / 64 = b.val then (1 : EReal) else 0) * W ⟨k.val % 64, Nat.mod_lt _ (by norm_num)⟩)
      = ∑ i : Fin 64, X b i * W i := by
  choose X' hX' using hX
  choose W' hW' using hW
  have hl : ∀ k : Fin 128, X ⟨k.val / 64, by have := k.isLt; omega⟩ ⟨k.val % 64, Nat.mod_lt _ (by norm_num)⟩
        * ((if k.val / 64 = b.val then (1 : EReal) else 0) * W ⟨k.val % 64, Nat.mod_lt _ (by norm_num)⟩)
      = ((X' ⟨k.val / 64, by have := k.isLt; omega⟩ ⟨k.val % 64, Nat.mod_lt _ (by norm_num)⟩
        * ((if k.val / 64 = b.val then (1 : ℝ) else 0) * W' ⟨k.val % 64, Nat.mod_lt _ (by norm_num)⟩) : ℝ) : EReal) := fun k => by
    rw [hX', hW']
    split <;> push_cast <;> rfl
  have hr : ∀ i : Fin 64, X b i * W i = ((X' b i * W' i : ℝ) : EReal) := fun i => by rw [hX', hW', EReal.coe_mul]
  simp only [hl, hr]
  rw [← Cert.Net.coe_sum, ← Cert.Net.coe_sum, block_sum_real X' W' b]

end Cert.Blend

end
-- ==== Proof.LibRealEntries.lean ====
/-
  Arrays whose entries are real numbers, inside the extended reals.

  Being a real number (neither ⊤ nor ⊥) is kept by subtraction; an extended real in [0, ⊤) is real; the hyperbolic
  tangent of ANY extended real is real (its values at ⊥ and ⊤ are −1 and 1); and a broadcast of an array reads, at every
  index, SOME entry of its operand, so a broadcast of an array of reals is an array of reals — in particular a scalar
  constant whose word denotes a real, spread over any shape.
-/
import Idealize.ShloMosaic.PureOps.Ideal
import Idealize.ShloMosaic.PureOps.Ideal.Laws
import Idealize.ShloMosaic.Lib.ValueIdx
import Idealize.ShloMosaic.Lib.Pipeline.Value
import proofs.«161792_j28492813041739_2_alg».proof.Proof.LibSegSum

noncomputable section

namespace Cert.LibRealEntries

open Idealize.ShloMosaic

/-- An extended real in [0, ⊤) is a real. -/
theorem real_of_range {v : EReal} (h : 0 ≤ v ∧ v ≠ ⊤) : ∃ r : ℝ, v = (r : EReal) :=
  ⟨v.toReal, (EReal.coe_toReal h.2 (fun hb => by rw [hb] at h; exact absurd h.1 (by simp))).symm⟩

/-- A difference of two reals is a real. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

/-- The hyperbolic tangent of any extended real is a real. -/
theorem tanh_real (v : EReal) : ∃ r : ℝ, Ideal.tanh v = (r : EReal) := by
  induction v using EReal.rec with
  | bot => exact ⟨-1, by rw [Ideal.tanh_bot]; simp⟩
  | coe r => exact ⟨Real.tanh r, rfl⟩
  | top => exact ⟨1, by rw [Ideal.tanh_top]; simp⟩

/-- A broadcast of an array of reals is an array of reals: each entry is SOME entry of the operand. -/
theorem bcast_real {s t : Shape} {dims : Fin s.rank → Fin t.rank} (h : s.BroadcastsInDim t dims) (x : s.Idx → EReal)
    (hx : ∀ i, ∃ r : ℝ, x i = (r : EReal)) : ∀ j, ∃ r : ℝ, broadcastInDim t dims h x j = (r : EReal) := fun j => by
  unfold broadcastInDim
  exact hx _

/-- A scalar constant whose word denotes a real, spread over any shape, has real entries. -/
theorem splat_real {t : Shape} (h : (⟨0, ![]⟩ : Shape).BroadcastsInDim t ![]) (w : BitVec 32)
    (hw : ∃ r : ℝ, Ideal.ofBits .f32 w = (r : EReal)) :
    ∀ j, ∃ r : ℝ, broadcastInDim t ![] h (constant (F := Ideal) ⟨0, ![]⟩ .f32 w) j = (r : EReal) :=
  bcast_real h _ fun _ => hw

/-- select(g > z, rsqrt(max(g, ε)), z) of whole arrays, read at an index n where ε is positive and z is 0: a number in
    [0, ⊤), whatever g is. -/
theorem guarded_rsqrt_vec_range {s : Shape} (g eps z : FVec Ideal s .f32) (n : s.Idx) (heps : 0 < eps n) (hz : z n = 0) :
    0 ≤ select (cmpf .ogt g z) (Host.rsqrt (maximumf g eps)) z n
      ∧ select (cmpf .ogt g z) (Host.rsqrt (maximumf g eps)) z n ≠ ⊤ :=
  Cert.LibSegSum.guarded_rsqrt_range (g n) (eps n) (z n) heps hz

end Cert.LibRealEntries

end
-- ==== Proof.SpecReal.lean ====
/-
  Two stages that are real numbers whatever the index list and the fluxes are.

  * norm e = dis (src e) · dis (tgt e): every dis n is a guarded inverse square root, a number in [0, ⊤), hence real; a
    gather reads SOME entry; a product of reals is real.
  * fFull b e: on the self loops it is 0; on the given edges it is keep · f + (1 − keep) · (1 − f) with
    keep = (1 + tanh(·)) · ½, and tanh of ANY extended real is a real number in [−1, 1], so keep is real with no
    hypothesis on the fluxes; f is real by hypothesis.
-/
import proofs.«161792_j28492813041739_2_alg».proof.Proof.EdgeSpec
import proofs.«161792_j28492813041739_2_alg».proof.Proof.LibSegSum
import proofs.«161792_j28492813041739_2_alg».proof.Proof.LibExtReals
import proofs.«161792_j28492813041739_2_alg».proof.Proof.LibRealEntries
import Idealize.ShloMosaic.PureOps.Ideal.Laws
import Idealize.ShloMosaic.Lib.ValueIdx
import Idealize.ShloMosaic.Lib.Pipeline.Value

noncomputable section

namespace Cert.EdgeSpec

open Idealize.ShloMosaic Cert.ReferenceIdeal Cert.ReferenceIdeal.Facts₀ Cert.ReferenceIdeal.Facts Cert.LibRealEntries

/-! ## The constant words -/

/-- The word 0x0DA24260 (the floor under the degree) denotes a positive real. -/
theorem floor_word : ∃ r : ℝ, 0 < r ∧ Ideal.ofBits .f32 0x0DA24260#32 = (r : EReal) := by
  refine ⟨10633824 * (2 ^ 123)⁻¹, by positivity, ?_⟩
  simp [Ideal.ofBits, Ideal.ieee]

/-- The word 0x3F000000 (½) denotes a real. -/
theorem half_word : ∃ r : ℝ, Ideal.ofBits .f32 0x3F000000#32 = (r : EReal) := by
  refine ⟨2⁻¹, ?_⟩
  simp [Ideal.ofBits, Ideal.ieee]
  rw [← EReal.coe_mul]
  norm_num

/-- The word 0x3F800000 (1) denotes a real. -/
theorem one_real : ∃ r : ℝ, Ideal.ofBits .f32 0x3F800000#32 = (r : EReal) := ⟨1, by rw [Cert.Net.one_word]; simp⟩

/-- The zero word denotes a real. -/
theorem zero_real : ∃ r : ℝ, Ideal.ofBits .f32 0x00000000#32 = (r : EReal) := ⟨0, by rw [Ideal.ofBits_zero_f32]; simp⟩

/-! ## The stages -/

/-- Every guarded inverse square root of a degree lies in [0, ⊤), whatever the degree is. -/
theorem dis_range (ei : IVec S2x1600000 32) (n : S50000.Idx) : 0 ≤ dis ei n ∧ dis ei n ≠ ⊤ := by
  obtain ⟨r, hr, he⟩ := floor_word
  have hz : broadcastInDim S50000 ![] bcast_S_S50000 (constant (F := Ideal) S_ .f32 0x00000000#32) n = (0 : EReal) := by
    rw [broadcastInDim_apply ![] bcast_S_S50000 _ n ValueIdx.ix0 fun d => d.elim0]
    exact Ideal.ofBits_zero_f32
  have hf : (0 : EReal) < broadcastInDim S50000 ![] bcast_S_S50000 (constant (F := Ideal) S_ .f32 0x0DA24260#32) n := by
    rw [broadcastInDim_apply ![] bcast_S_S50000 _ n ValueIdx.ix0 fun d => d.elim0]
    show (0 : EReal) < Ideal.ofBits .f32 0x0DA24260#32
    rw [he]
    exact_mod_cast hr
  unfold dis
  exact guarded_rsqrt_vec_range (deg ei) _ _ n hf hz

/-- Every guarded inverse square root of a degree is real. -/
theorem dis_real (ei : IVec S2x1600000 32) : ∀ n, ∃ r : ℝ, dis ei n = (r : EReal) := fun n => real_of_range (dis_range ei n)

/-- The normalisation of every edge is real: a product of two entries of dis. -/
theorem norm_real (ei : IVec S2x1600000 32) : ∀ i, ∃ r : ℝ, norm ei i = (r : EReal) := fun i => by
  unfold norm
  rw [ValueIdx.mulf_apply]
  unfold Host.gather
  exact Cert.Net.real_mul (dis_real ei _) (dis_real ei _)

/-- keep is real whatever the fluxes are. -/
theorem keep_real (ei : IVec S2x1600000 32) (fl : FVec Ideal S2x50000 .f32) : ∀ i, ∃ r : ℝ, keep ei fl i = (r : EReal) := fun i => by
  unfold keep
  rw [ValueIdx.mulf_apply, ValueIdx.addf_apply]
  exact Cert.Net.real_mul (Cert.Net.real_add (splat_real _ _ one_real i) (tanh_real _)) (splat_real _ _ half_word i)

/-- fDisc is real when the given edge strengths are. -/
theorem fDisc_real (ei : IVec S2x1600000 32) (fdo : FVec Ideal S1600000 .f32) (fl : FVec Ideal S2x50000 .f32)
    (hf : ∀ i, ∃ r : ℝ, fdo i = (r : EReal)) : ∀ i, ∃ r : ℝ, fDisc ei fdo fl i = (r : EReal) := fun i => by
  have hrow : ∀ k, ∃ r : ℝ, fRow fdo k = (r : EReal) := bcast_real _ _ hf
  unfold fDisc
  rw [ValueIdx.addf_apply, ValueIdx.mulf_apply, ValueIdx.mulf_apply, ValueIdx.subf_apply]
  refine Cert.Net.real_add (Cert.Net.real_mul (keep_real ei fl i) (bcast_real _ _ hrow i))
    (Cert.Net.real_mul (real_sub (splat_real _ _ one_real i) (keep_real ei fl i)) (bcast_real _ _ (fun k => ?_) i))
  rw [ValueIdx.subf_apply]
  exact real_sub (splat_real _ _ one_real k) (hrow k)

/-- The blend factor of every edge is real when the given edge strengths are. -/
theorem fFull_real (ei : IVec S2x1600000 32) (fdo : FVec Ideal S1600000 .f32) (fl : FVec Ideal S2x50000 .f32)
    (hf : ∀ i, ∃ r : ℝ, fdo i = (r : EReal)) : ∀ i, ∃ r : ℝ, fFull ei fdo fl i = (r : EReal) := fun i => by
  obtain ⟨b, e, rfl⟩ : ∃ (b : Fin 2) (e : Fin 1650000), i = ValueIdx.ix2 b e := ⟨i 0, i 1, ValueIdx.eq_ix2 i⟩
  unfold fFull
  by_cases he : e.val < 1600000
  · rw [concatenate_pair_apply_left (t := S2x1650000) (s₁ := S2x1600000) (s₂ := S2x50000) (1 : Fin 2) (fDisc ei fdo fl)
      (broadcastInDim S2x50000 ![] bcast_S_S2x50000 (constant (F := Ideal) S_ .f32 0x00000000#32))
      concatenates_S2x1600000_S2x50000_S2x1650000_d1 (ValueIdx.ix2 b e) rfl
      (ValueIdx.ix2 b (⟨e.val, he⟩ : Fin 1600000)) (fun a => by
        match a with
        | ⟨0, _⟩ => rfl
        | ⟨1, _⟩ => rfl)]
    exact fDisc_real ei fdo fl hf _
  · obtain ⟨k, hk⟩ : ∃ k : Nat, e.val = 1600000 + k := ⟨e.val - 1600000, by omega⟩
    have hk' : k < 50000 := by have := e.isLt; omega
    rw [concatenate_pair_apply_right (t := S2x1650000) (s₁ := S2x1600000) (s₂ := S2x50000) (1 : Fin 2) (fDisc ei fdo fl)
      (broadcastInDim S2x50000 ![] bcast_S_S2x50000 (constant (F := Ideal) S_ .f32 0x00000000#32))
      concatenates_S2x1600000_S2x50000_S2x1650000_d1 (ValueIdx.ix2 b e) rfl rfl
      (ValueIdx.ix2 b (⟨k, hk'⟩ : Fin 50000)) (fun a ha => by
        match a, ha with
        | ⟨0, _⟩, _ => rfl
        | ⟨1, _⟩, ha => exact absurd rfl ha) (by
        show k + 1600000 = e.val
        omega)]
    exact splat_real _ _ zero_real _

end Cert.EdgeSpec

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.PreReal.lean ====
/-
  The precondition read back: when the finiteness test of the seven arguments is 1, every entry of x, of the given edge
  strengths and of the two weight matrices is a real number. The test is an "and" of six all(|a| < +inf); each conjunct
  that is 1 says its array has only real entries.
-/
import proofs.«161792_j28492813041739_2_alg».proof.Pre_finite_inputs
import proofs.«161792_j28492813041739_2_alg».proof.Proof.LibFinite
import Idealize.ShloMosaic.PureOps.Ideal.Laws
import Idealize.ShloMosaic.Lib.ValueIdx
import Idealize.ShloMosaic.Lib.Affine

noncomputable section

namespace Cert.EdgeSpec

open Idealize.ShloMosaic Cert.Pre_finite_inputs Cert.Pre_finite_inputs.Facts

/-- When the finiteness test of the seven arguments is 1, the node features, the given edge strengths and the two weight
    matrices have only real entries. -/
theorem real_of_pre [Cert.Pre_finite_inputs.Facts] (x : FVec Ideal S2x50000x64 .f32) (ei : IVec S2x1600000 32) (fdo : FVec Ideal S1600000 .f32)
    (fl : FVec Ideal S2x50000 .f32) (wc wd : FVec Ideal S64x64 .f32) (bias : FVec Ideal S64 .f32)
    (h : Cert.Pre_finite_inputs.fn (F := Ideal) x ei fdo fl wc wd bias = fun _ => 1#1) :
    (∀ i, ∃ r : ℝ, x i = (r : EReal)) ∧ (∀ i, ∃ r : ℝ, fdo i = (r : EReal))
      ∧ (∀ i, ∃ r : ℝ, wc i = (r : EReal)) ∧ (∀ i, ∃ r : ℝ, wd i = (r : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, hwd⟩ := IntOp.andi_eq_one.1 h1
  obtain ⟨h3, hwc⟩ := IntOp.andi_eq_one.1 h2
  obtain ⟨h4, -⟩ := IntOp.andi_eq_one.1 h3
  obtain ⟨hx, hfdo⟩ := IntOp.andi_eq_one.1 h4
  exact ⟨Cert.LibFinite.real_of_all x _ _ _ _ hx, Cert.LibFinite.real_of_all fdo _ _ _ _ hfdo,
    Cert.LibFinite.real_of_all wc _ _ _ _ hwc, Cert.LibFinite.real_of_all wd _ _ _ _ hwd⟩

end Cert.EdgeSpec

end
-- ==== Proof.KernelValue.lean ====
/-
  The kernel's program computes the specification's layer.

  Entry (b, e, o) of the re-laid result array is, by the kernel's block function at row e and lane 64·b + o,
        (norm e · (1 − f)) · Σ_k XG(e, k) · WB wc (k, 64·b + o)  +  (norm e · f) · Σ_k XG(e, k) · WB wd (k, 64·b + o),     f = fFull (b, e).
  The 128-term sum against the block-diagonal matrix is the 64-term sum over batch b's features (the other block meets the
  factor 0, all entries being real), and the two products regroup to  norm e · ((1 − f) · Σ_c + f · Σ_d): the message of
  the specification. All entries are real because the float arguments are finite and norm, fFull are real by construction.
-/
import proofs.«161792_j28492813041739_2_alg».proof.Defs
import proofs.«161792_j28492813041739_2_alg».proof.Proof.KernelArray
import proofs.«161792_j28492813041739_2_alg».proof.Proof.KernelEntryX
import proofs.«161792_j28492813041739_2_alg».proof.Proof.KernelEntryAB
import proofs.«161792_j28492813041739_2_alg».proof.Proof.KernelEntryW
import proofs.«161792_j28492813041739_2_alg».proof.Proof.KernelStages
import proofs.«161792_j28492813041739_2_alg».proof.Proof.KernelTail
import proofs.«161792_j28492813041739_2_alg».proof.Proof.BlendAlgebra
import proofs.«161792_j28492813041739_2_alg».proof.Proof.SpecMsg
import proofs.«161792_j28492813041739_2_alg».proof.Proof.SpecReal
import proofs.«161792_j28492813041739_2_alg».proof.Proof.PreReal

noncomputable section

open scoped BigOperators

namespace Cert.KernelIdeal.Value

open Idealize.ShloMosaic Idealize.ShloMosaic.ValueIdx Idealize.SL.Sem Cert.KernelIdeal

/-- The re-laid kernel output over the launch arrays is the specification's message array, for real entries. -/
theorem msg_eq (x : FVec Ideal S2x50000x64 .f32) (ei : IVec S2x1600000 32) (fdo : FVec Ideal S1600000 .f32)
    (fl : FVec Ideal S2x50000 .f32) (wc wd : FVec Ideal S64x64 .f32)
    (hx : ∀ i, ∃ r : ℝ, x i = (r : EReal)) (hf : ∀ i, ∃ r : ℝ, fdo i = (r : EReal))
    (hwc : ∀ i, ∃ r : ℝ, wc i = (r : EReal)) (hwd : ∀ i, ∃ r : ℝ, wd i = (r : EReal)) :
    Tail.msgK (Arr.G (Pre.XG x ei) (Pre.AB ei fdo fl) (Pre.WB wc) (Pre.WB wd)) = Cert.EdgeSpec.msg x ei fdo fl wc wd := by
  funext i
  obtain ⟨b, e, o, rfl⟩ : ∃ (b : Fin 2) (e : Fin 1650000) (o : Fin 64), i = ix3 b e o := ⟨i 0, i 1, i 2, eq_ix3 i⟩
  rw [Tail.msgK_apply, Cert.EdgeSpec.msg_apply]
  show (if (Tail.lane b o).val < 64 then Pre.AB ei fdo fl (ix2 (0 : Fin 4) (Pre.padE e)) else Pre.AB ei fdo fl (ix2 (1 : Fin 4) (Pre.padE e)))
        * (∑ k : Fin 128, Pre.XG x ei (ix2 (Pre.padE e) k) * Pre.WB wc (ix2 k (Tail.lane b o)))
      + (if (Tail.lane b o).val < 64 then Pre.AB ei fdo fl (ix2 (2 : Fin 4) (Pre.padE e)) else Pre.AB ei fdo fl (ix2 (3 : Fin 4) (Pre.padE e)))
        * (∑ k : Fin 128, Pre.XG x ei (ix2 (Pre.padE e) k) * Pre.WB wd (ix2 k (Tail.lane b o))) = _
  have ho : o.val < 64 := o.isLt
  have hl : Pre.laneI (Tail.lane b o) = o := Fin.ext (by show (64 * b.val + o.val) % 64 = o.val; omega)
  have hlb : (Tail.lane b o).val / 64 = b.val := by show (64 * b.val + o.val) / 64 = b.val; omega
  have hsum : ∀ (w : FVec Ideal S64x64 .f32) (hw : ∀ i, ∃ r : ℝ, w i = (r : EReal)),
      ∑ k : Fin 128, Pre.XG x ei (ix2 (Pre.padE e) k) * Pre.WB w (ix2 k (Tail.lane b o))
        = ∑ i : Fin 64, x (ix3 b (Cert.EdgeSpec.node ei e) i) * w (ix2 o i) := fun w hw => by
    refine (Finset.sum_congr rfl fun k _ => ?_).trans
      (Cert.Blend.block_sum (fun p i => x (ix3 p (Cert.EdgeSpec.node ei e) i)) (fun i => w (ix2 o i)) (fun p i => hx _) (fun i => hw _) b)
    rw [Pre.XG_apply, Pre.WB_apply, hl, hlb]
  have hA : (if (Tail.lane b o).val < 64 then Pre.AB ei fdo fl (ix2 (0 : Fin 4) (Pre.padE e)) else Pre.AB ei fdo fl (ix2 (1 : Fin 4) (Pre.padE e)))
      = Cert.EdgeSpec.norm ei (ix1 e) * ((1 : EReal) - Cert.EdgeSpec.fFull ei fdo fl (ix2 b e)) := by
    rw [← Pre.AB_lo ei fdo fl b e]
    fin_cases b
    · rw [if_pos (by show 64 * 0 + o.val < 64; omega)]; rfl
    · rw [if_neg (by show ¬ (64 * 1 + o.val < 64); omega)]; rfl
  have hB : (if (Tail.lane b o).val < 64 then Pre.AB ei fdo fl (ix2 (2 : Fin 4) (Pre.padE e)) else Pre.AB ei fdo fl (ix2 (3 : Fin 4) (Pre.padE e)))
      = Cert.EdgeSpec.norm ei (ix1 e) * Cert.EdgeSpec.fFull ei fdo fl (ix2 b e) := by
    rw [← Pre.AB_hi ei fdo fl b e]
    fin_cases b
    · rw [if_pos (by show 64 * 0 + o.val < 64; omega)]; rfl
    · rw [if_neg (by show ¬ (64 * 1 + o.val < 64); omega)]; rfl
  rw [hA, hB, hsum wc hwc, hsum wd hwd]
  exact (Cert.Blend.blend (Cert.EdgeSpec.norm_real ei _) (Cert.EdgeSpec.fFull_real ei fdo fl hf _)
    (Cert.EdgeSpec.xw_sum_real x wc hx hwc b _ o) (Cert.EdgeSpec.xw_sum_real x wd hx hwd b _ o)).symm

variable (m : (ℓ : Loc nD τ sig) → Buf (Elt Ideal) ℓ) (ρ : Dev nD → PrngReg)

/-- The result buffer after the whole run is the specification's output of the argument arrays, when the float
    arguments the products read have real entries. -/
theorem result_eq (c : Dev nD)
    (hx : ∀ i, ∃ r : ℝ, m ((c.tc : Thread nD τ).loc main_arg0) i = (r : EReal))
    (hf : ∀ i, ∃ r : ℝ, m ((c.tc : Thread nD τ).loc main_arg2) i = (r : EReal))
    (hwc : ∀ i, ∃ r : ℝ, m ((c.tc : Thread nD τ).loc main_arg4) i = (r : EReal))
    (hwd : ∀ i, ∃ r : ℝ, m ((c.tc : Thread nD τ).loc main_arg5) i = (r : EReal)) :
    (Pipeline.afterTail₀ cfgs (Gen.dats m) 0 (Gen.V0 m) [Gen.hostOps1] c main_v119 : S2x50000x64.Idx → EReal)
      = Cert.EdgeSpec.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [Tail.tail_eq m c, Arr.final m c, Pre.V_v90 m c, Pre.V_v91 m c, Pre.V_v100 m c, Pre.V_v103 m c,
    msg_eq _ _ _ _ _ _ hx hf hwc hwd]
  rfl

/-- The kernel's program, from a memory whose float arguments are finite: every execution terminates with the result
    buffer at the specification's output of the arguments, the arguments unchanged. -/
theorem run [hP : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v119)
          = Cert.EdgeSpec.out (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
      obtain ⟨hx, hf, hwc, hwd⟩ := Cert.EdgeSpec.real_of_pre _ _ _ _ _ _ _ (hpre c)
      exact ⟨(h c).1.trans (result_eq m c hx hf hwc hwd), (h c).2⟩)
    (Tail.run_tail m ρ)

end Cert.KernelIdeal.Value

end
-- ==== Proof.RefRunOps.lean ====
/-
  The reference program as a straight line of host operations.

  The reference program computes the layer with 141 host operations, one after the other: the two rows of the edge
  list with the self loops appended, the wrapped index columns, the degree and its guarded inverse square root, the
  edge normalisation, the flux gate, the blend factor, the two projections of the node features, the messages, their
  segment sum and the bias. This module lists the operations in order — the two concatenations as named functions of
  their two operands — and proves that the program IS that line.
-/
import proofs.«161792_j28492813041739_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Two index lists one after the other: the E given entries, then N more. -/
def catIdx (a : IVec S1600000 32) (b : IVec S50000 32) : IVec S1650000 32 :=
  concatenate S1650000 0 [⟨S1600000, a⟩, ⟨S50000, b⟩] concatenates_S1600000_S50000_S1650000_d0

/-- Two per-batch rows side by side along the edge axis: E entries, then N more. -/
def catBlend (a : FVec F S2x1600000 .f32) (b : FVec F S2x50000 .f32) : FVec F S2x1650000 .f32 :=
  concatenate S2x1650000 1 [⟨S2x1600000, a⟩, ⟨S2x50000, b⟩] concatenates_S2x1600000_S2x50000_S2x1650000_d1

/-- The reference program's 141 operations, in order (the three operations of the guarded-inverse-root call stand in the call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S50000 32 0),
    binary main_v1 main_v4 main_v5 (catIdx : (⟨S1600000, .i32⟩ : BufTy).Contents (Elt F) → (⟨S50000, .i32⟩ : BufTy).Contents (Elt F) → (⟨S1650000, .i32⟩ : BufTy).Contents (Elt F)),
    binary main_v3 main_v4 main_v6 (catIdx : (⟨S1600000, .i32⟩ : BufTy).Contents (Elt F) → (⟨S50000, .i32⟩ : BufTy).Contents (Elt F) → (⟨S1650000, .i32⟩ : BufTy).Contents (Elt F)),
    nullary main_cst (constant S_ .f32 0x00000000#32),
    unary main_cst main_v7 (broadcastInDim S50000 ![] bcast_S_S50000 : (⟨S_, .f32⟩ : BufTy).Contents (Elt F) → (⟨S50000, .f32⟩ : BufTy).Contents (Elt F)),
    nullary main_c (constantI S_ 32 0#32),
    unary main_c main_v8 (broadcastInDim S1650000 ![] bcast_S_S1650000 : (⟨S_, .i32⟩ : BufTy).Contents (Elt F) → (⟨S1650000, .i32⟩ : BufTy).Contents (Elt F)),
    binary main_v6 main_v8 main_v9 (cmpi .slt : (⟨S1650000, .i32⟩ : BufTy).Contents (Elt F) → (⟨S1650000, .i32⟩ : BufTy).Contents (Elt F) → (⟨S1650000, .i1⟩ : BufTy).Contents (Elt F)),
    nullary main_c_0 (constantI S_ 32 50000#32),
    unary main_c_0 main_v10 (broadcastInDim S1650000 ![] bcast_S_S1650000 : (⟨S_, .i32⟩ : BufTy).Contents (Elt F) → (⟨S1650000, .i32⟩ : BufTy).Contents (Elt F)),
    binary main_v6 main_v10 main_v11 (addi : (⟨S1650000, .i32⟩ : BufTy).Contents (Elt F) → (⟨S1650000, .i32⟩ : BufTy).Contents (Elt F) → (⟨S1650000, .i32⟩ : BufTy).Contents (Elt F)),
    ternary main_v9 main_v11 main_v6 main_v12 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v12 main_v13 (broadcastInDim S1650000x1 ![0] bcast_S1650000_S1650000x1_0 : (⟨S1650000, .i32⟩ : BufTy).Contents (Elt F) → (⟨S1650000x1, .i32⟩ : BufTy).Contents (Elt F)),
    nullary main_cst_1 (constant S_ .f32 0x3F800000#32),
    unary main_cst_1 main_v14 (broadcastInDim S1650000 ![] bcast_S_S1650000 : (⟨S_, .f32⟩ : BufTy).Contents (Elt F) → (⟨S1650000, .f32⟩ : BufTy).Contents (Elt F)),
    ternary main_v7 main_v13 main_v14 main_v15 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_2 (constant S_ .f32 0x00000000#32),
    unary main_cst_2 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x0DA24260#32),
    unary main_cst_3 main_v18 (broadcastInDim S50000 ![] bcast_S_S50000 : (⟨S_, .f32⟩ : BufTy).Contents (Elt F) → (⟨S50000, .f32⟩ : BufTy).Contents (Elt F)),
    binary main_v15 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (Host.rsqrt : (⟨S50000, .f32⟩ : BufTy).Contents (Elt F) → (⟨S50000, .f32⟩ : BufTy).Contents (Elt F)),
    nullary main_cst_4 (constant S_ .f32 0x00000000#32),
    unary main_cst_4 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    ternary main_v17 main_v20 main_call0_v1 main_v21 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c_5 (constantI S_ 32 0#32),
    unary main_c_5 main_v22 (broadcastInDim S1650000 ![] bcast_S_S1650000 : (⟨S_, .i32⟩ : BufTy).Contents (Elt F) → (⟨S1650000, .i32⟩ : BufTy).Contents (Elt F)),
    binary main_v5 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_6 (constantI S_ 32 50000#32),
    unary main_c_6 main_v24 (broadcastInDim S1650000 ![] bcast_S_S1650000 : (⟨S_, .i32⟩ : BufTy).Contents (Elt F) → (⟨S1650000, .i32⟩ : BufTy).Contents (Elt F)),
    binary main_v5 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v5 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v21 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_7 (constantI S_ 32 0#32),
    unary main_c_7 main_v29 (broadcastInDim S1650000 ![] bcast_S_S1650000 : (⟨S_, .i32⟩ : BufTy).Contents (Elt F) → (⟨S1650000, .i32⟩ : BufTy).Contents (Elt F)),
    binary main_v6 main_v29 main_v30 (cmpi .slt : (⟨S1650000, .i32⟩ : BufTy).Contents (Elt F) → (⟨S1650000, .i32⟩ : BufTy).Contents (Elt F) → (⟨S1650000, .i1⟩ : BufTy).Contents (Elt F)),
    nullary main_c_8 (constantI S_ 32 50000#32),
    unary main_c_8 main_v31 (broadcastInDim S1650000 ![] bcast_S_S1650000 : (⟨S_, .i32⟩ : BufTy).Contents (Elt F) → (⟨S1650000, .i32⟩ : BufTy).Contents (Elt F)),
    binary main_v6 main_v31 main_v32 (addi : (⟨S1650000, .i32⟩ : BufTy).Contents (Elt F) → (⟨S1650000, .i32⟩ : BufTy).Contents (Elt F) → (⟨S1650000, .i32⟩ : BufTy).Contents (Elt F)),
    ternary main_v30 main_v32 main_v6 main_v33 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v33 main_v34 (broadcastInDim S1650000x1 ![0] bcast_S1650000_S1650000x1_0 : (⟨S1650000, .i32⟩ : BufTy).Contents (Elt F) → (⟨S1650000x1, .i32⟩ : BufTy).Contents (Elt F)),
    binary main_v21 main_v34 main_v35 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v28 main_v35 main_v36 (mulf : (⟨S1650000, .f32⟩ : BufTy).Contents (Elt F) → (⟨S1650000, .f32⟩ : BufTy).Contents (Elt F) → (⟨S1650000, .f32⟩ : BufTy).Contents (Elt F)),
    nullary main_c_9 (constantI S_ 32 0#32),
    unary main_c_9 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 50000#32),
    unary main_c_10 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_arg3 main_v42 main_v43 ((fun x i => Host.gather gather_S2x50000_S1600000x1_S2x1600000_0_1_n_n_1_1_21 x i) : (⟨S2x50000, .f32⟩ : BufTy).Contents (Elt F) → (⟨S1600000x1, .i32⟩ : BufTy).Contents (Elt F) → (⟨S2x1600000, .f32⟩ : BufTy).Contents (Elt F)),
    nullary main_c_11 (constantI S_ 32 0#32),
    unary main_c_11 main_v44 (broadcastInDim S1600000 ![] bcast_S_S1600000 : (⟨S_, .i32⟩ : BufTy).Contents (Elt F) → (⟨S1600000, .i32⟩ : BufTy).Contents (Elt F)),
    binary main_v3 main_v44 main_v45 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 50000#32),
    unary main_c_12 main_v46 (broadcastInDim S1600000 ![] bcast_S_S1600000 : (⟨S_, .i32⟩ : BufTy).Contents (Elt F) → (⟨S1600000, .i32⟩ : BufTy).Contents (Elt F)),
    binary main_v3 main_v46 main_v47 (addi : (⟨S1600000, .i32⟩ : BufTy).Contents (Elt F) → (⟨S1600000, .i32⟩ : BufTy).Contents (Elt F) → (⟨S1600000, .i32⟩ : BufTy).Contents (Elt F)),
    ternary main_v45 main_v47 main_v3 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v48 main_v49 (broadcastInDim S1600000x1 ![0] bcast_S1600000_S1600000x1_0 : (⟨S1600000, .i32⟩ : BufTy).Contents (Elt F) → (⟨S1600000x1, .i32⟩ : BufTy).Contents (Elt F)),
    binary main_arg3 main_v49 main_v50 ((fun x i => Host.gather gather_S2x50000_S1600000x1_S2x1600000_0_1_n_n_1_1_21 x i) : (⟨S2x50000, .f32⟩ : BufTy).Contents (Elt F) → (⟨S1600000x1, .i32⟩ : BufTy).Contents (Elt F) → (⟨S2x1600000, .f32⟩ : BufTy).Contents (Elt F)),
    binary main_v43 main_v50 main_v51 (mulf : (⟨S2x1600000, .f32⟩ : BufTy).Contents (Elt F) → (⟨S2x1600000, .f32⟩ : BufTy).Contents (Elt F) → (⟨S2x1600000, .f32⟩ : BufTy).Contents (Elt F)),
    nullary main_cst_13 (constant S_ .f32 0x3F800000#32),
    unary main_cst_13 main_v52 (broadcastInDim S2x1600000 ![] bcast_S_S2x1600000 : (⟨S_, .f32⟩ : BufTy).Contents (Elt F) → (⟨S2x1600000, .f32⟩ : BufTy).Contents (Elt F)),
    binary main_v51 main_v52 main_v53 (Host.divf : (⟨S2x1600000, .f32⟩ : BufTy).Contents (Elt F) → (⟨S2x1600000, .f32⟩ : BufTy).Contents (Elt F) → (⟨S2x1600000, .f32⟩ : BufTy).Contents (Elt F)),
    unary main_v53 main_v54 (Host.tanh : (⟨S2x1600000, .f32⟩ : BufTy).Contents (Elt F) → (⟨S2x1600000, .f32⟩ : BufTy).Contents (Elt F)),
    nullary main_cst_14 (constant S_ .f32 0x3F800000#32),
    unary main_cst_14 main_v55 (broadcastInDim S2x1600000 ![] bcast_S_S2x1600000 : (⟨S_, .f32⟩ : BufTy).Contents (Elt F) → (⟨S2x1600000, .f32⟩ : BufTy).Contents (Elt F)),
    binary main_v55 main_v54 main_v56 (addf : (⟨S2x1600000, .f32⟩ : BufTy).Contents (Elt F) → (⟨S2x1600000, .f32⟩ : BufTy).Contents (Elt F) → (⟨S2x1600000, .f32⟩ : BufTy).Contents (Elt F)),
    nullary main_cst_15 (constant S_ .f32 0x3F000000#32),
    unary main_cst_15 main_v57 (broadcastInDim S2x1600000 ![] bcast_S_S2x1600000 : (⟨S_, .f32⟩ : BufTy).Contents (Elt F) → (⟨S2x1600000, .f32⟩ : BufTy).Contents (Elt F)),
    binary main_v56 main_v57 main_v58 (mulf : (⟨S2x1600000, .f32⟩ : BufTy).Contents (Elt F) → (⟨S2x1600000, .f32⟩ : BufTy).Contents (Elt F) → (⟨S2x1600000, .f32⟩ : BufTy).Contents (Elt F)),
    unary main_arg2 main_v59 (broadcastInDim S1x1600000 ![1] bcast_S1600000_S1x1600000_1 : (⟨S1600000, .f32⟩ : BufTy).Contents (Elt F) → (⟨S1x1600000, .f32⟩ : BufTy).Contents (Elt F)),
    unary main_v59 main_v60 (broadcastInDim S2x1600000 ![0, 1] bcast_S1x1600000_S2x1600000_0_1 : (⟨S1x1600000, .f32⟩ : BufTy).Contents (Elt F) → (⟨S2x1600000, .f32⟩ : BufTy).Contents (Elt F)),
    binary main_v58 main_v60 main_v61 (mulf : (⟨S2x1600000, .f32⟩ : BufTy).Contents (Elt F) → (⟨S2x1600000, .f32⟩ : BufTy).Contents (Elt F) → (⟨S2x1600000, .f32⟩ : BufTy).Contents (Elt F)),
    nullary main_cst_16 (constant S_ .f32 0x3F800000#32),
    unary main_cst_16 main_v62 (broadcastInDim S2x1600000 ![] bcast_S_S2x1600000 : (⟨S_, .f32⟩ : BufTy).Contents (Elt F) → (⟨S2x1600000, .f32⟩ : BufTy).Contents (Elt F)),
    binary main_v62 main_v58 main_v63 (subf : (⟨S2x1600000, .f32⟩ : BufTy).Contents (Elt F) → (⟨S2x1600000, .f32⟩ : BufTy).Contents (Elt F) → (⟨S2x1600000, .f32⟩ : BufTy).Contents (Elt F)),
    nullary main_cst_17 (constant S_ .f32 0x3F800000#32),
    unary main_cst_17 main_v64 (broadcastInDim S1x1600000 ![] bcast_S_S1x1600000 : (⟨S_, .f32⟩ : BufTy).Contents (Elt F) → (⟨S1x1600000, .f32⟩ : BufTy).Contents (Elt F)),
    binary main_v64 main_v59 main_v65 (subf : (⟨S1x1600000, .f32⟩ : BufTy).Contents (Elt F) → (⟨S1x1600000, .f32⟩ : BufTy).Contents (Elt F) → (⟨S1x1600000, .f32⟩ : BufTy).Contents (Elt F)),
    unary main_v65 main_v66 (broadcastInDim S2x1600000 ![0, 1] bcast_S1x1600000_S2x1600000_0_1 : (⟨S1x1600000, .f32⟩ : BufTy).Contents (Elt F) → (⟨S2x1600000, .f32⟩ : BufTy).Contents (Elt F)),
    binary main_v63 main_v66 main_v67 (mulf : (⟨S2x1600000, .f32⟩ : BufTy).Contents (Elt F) → (⟨S2x1600000, .f32⟩ : BufTy).Contents (Elt F) → (⟨S2x1600000, .f32⟩ : BufTy).Contents (Elt F)),
    binary main_v61 main_v67 main_v68 (addf : (⟨S2x1600000, .f32⟩ : BufTy).Contents (Elt F) → (⟨S2x1600000, .f32⟩ : BufTy).Contents (Elt F) → (⟨S2x1600000, .f32⟩ : BufTy).Contents (Elt F)),
    nullary main_cst_18 (constant S_ .f32 0x00000000#32),
    unary main_cst_18 main_v69 (broadcastInDim S2x50000 ![] bcast_S_S2x50000 : (⟨S_, .f32⟩ : BufTy).Contents (Elt F) → (⟨S2x50000, .f32⟩ : BufTy).Contents (Elt F)),
    binary main_v68 main_v69 main_v70 (catBlend : (⟨S2x1600000, .f32⟩ : BufTy).Contents (Elt F) → (⟨S2x50000, .f32⟩ : BufTy).Contents (Elt F) → (⟨S2x1650000, .f32⟩ : BufTy).Contents (Elt F)),
    binary main_arg0 main_arg4 main_v71 ((fun l r => Host.dotGeneral dot_S2x50000x64_S64x64_S2x50000x64_2_1_01_0_n_n none l r) : (⟨S2x50000x64, .f32⟩ : BufTy).Contents (Elt F) → (⟨S64x64, .f32⟩ : BufTy).Contents (Elt F) → (⟨S2x50000x64, .f32⟩ : BufTy).Contents (Elt F)),
    binary main_arg0 main_arg5 main_v72 ((fun l r => Host.dotGeneral dot_S2x50000x64_S64x64_S2x50000x64_2_1_01_0_n_n none l r) : (⟨S2x50000x64, .f32⟩ : BufTy).Contents (Elt F) → (⟨S64x64, .f32⟩ : BufTy).Contents (Elt F) → (⟨S2x50000x64, .f32⟩ : BufTy).Contents (Elt F)),
    unary main_v36 main_v73 (broadcastInDim S1x1650000x1 ![1] bcast_S1650000_S1x1650000x1_1 : (⟨S1650000, .f32⟩ : BufTy).Contents (Elt F) → (⟨S1x1650000x1, .f32⟩ : BufTy).Contents (Elt F)),
    nullary main_cst_19 (constant S_ .f32 0x3F800000#32),
    unary main_cst_19 main_v74 (broadcastInDim S2x1650000 ![] bcast_S_S2x1650000 : (⟨S_, .f32⟩ : BufTy).Contents (Elt F) → (⟨S2x1650000, .f32⟩ : BufTy).Contents (Elt F)),
    binary main_v74 main_v70 main_v75 (subf : (⟨S2x1650000, .f32⟩ : BufTy).Contents (Elt F) → (⟨S2x1650000, .f32⟩ : BufTy).Contents (Elt F) → (⟨S2x1650000, .f32⟩ : BufTy).Contents (Elt F)),
    unary main_v75 main_v76 (broadcastInDim S2x1650000x1 ![0, 1] bcast_S2x1650000_S2x1650000x1_0_1 : (⟨S2x1650000, .f32⟩ : BufTy).Contents (Elt F) → (⟨S2x1650000x1, .f32⟩ : BufTy).Contents (Elt F)),
    nullary main_c_20 (constantI S_ 32 0#32),
    unary main_c_20 main_v77 (broadcastInDim S1650000 ![] bcast_S_S1650000 : (⟨S_, .i32⟩ : BufTy).Contents (Elt F) → (⟨S1650000, .i32⟩ : BufTy).Contents (Elt F)),
    binary main_v5 main_v77 main_v78 (cmpi .slt : (⟨S1650000, .i32⟩ : BufTy).Contents (Elt F) → (⟨S1650000, .i32⟩ : BufTy).Contents (Elt F) → (⟨S1650000, .i1⟩ : BufTy).Contents (Elt F)),
    nullary main_c_21 (constantI S_ 32 50000#32),
    unary main_c_21 main_v79 (broadcastInDim S1650000 ![] bcast_S_S1650000 : (⟨S_, .i32⟩ : BufTy).Contents (Elt F) → (⟨S1650000, .i32⟩ : BufTy).Contents (Elt F)),
    binary main_v5 main_v79 main_v80 (addi : (⟨S1650000, .i32⟩ : BufTy).Contents (Elt F) → (⟨S1650000, .i32⟩ : BufTy).Contents (Elt F) → (⟨S1650000, .i32⟩ : BufTy).Contents (Elt F)),
    ternary main_v78 main_v80 main_v5 main_v81 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v81 main_v82 (broadcastInDim S1650000x1 ![0] bcast_S1650000_S1650000x1_0 : (⟨S1650000, .i32⟩ : BufTy).Contents (Elt F) → (⟨S1650000x1, .i32⟩ : BufTy).Contents (Elt F)),
    binary main_v71 main_v82 main_v83 ((fun x i => Host.gather gather_S2x50000x64_S1650000x1_S2x1650000x64_02_1_n_n_1_1_2164 x i) : (⟨S2x50000x64, .f32⟩ : BufTy).Contents (Elt F) → (⟨S1650000x1, .i32⟩ : BufTy).Contents (Elt F) → (⟨S2x1650000x64, .f32⟩ : BufTy).Contents (Elt F)),
    unary main_v76 main_v84 (broadcastInDim S2x1650000x64 ![0, 1, 2] bcast_S2x1650000x1_S2x1650000x64_0_1_2 : (⟨S2x1650000x1, .f32⟩ : BufTy).Contents (Elt F) → (⟨S2x1650000x64, .f32⟩ : BufTy).Contents (Elt F)),
    binary main_v84 main_v83 main_v85 (mulf : (⟨S2x1650000x64, .f32⟩ : BufTy).Contents (Elt F) → (⟨S2x1650000x64, .f32⟩ : BufTy).Contents (Elt F) → (⟨S2x1650000x64, .f32⟩ : BufTy).Contents (Elt F)),
    unary main_v70 main_v86 (broadcastInDim S2x1650000x1 ![0, 1] bcast_S2x1650000_S2x1650000x1_0_1 : (⟨S2x1650000, .f32⟩ : BufTy).Contents (Elt F) → (⟨S2x1650000x1, .f32⟩ : BufTy).Contents (Elt F)),
    nullary main_c_22 (constantI S_ 32 0#32),
    unary main_c_22 main_v87 (broadcastInDim S1650000 ![] bcast_S_S1650000 : (⟨S_, .i32⟩ : BufTy).Contents (Elt F) → (⟨S1650000, .i32⟩ : BufTy).Contents (Elt F)),
    binary main_v5 main_v87 main_v88 (cmpi .slt : (⟨S1650000, .i32⟩ : BufTy).Contents (Elt F) → (⟨S1650000, .i32⟩ : BufTy).Contents (Elt F) → (⟨S1650000, .i1⟩ : BufTy).Contents (Elt F)),
    nullary main_c_23 (constantI S_ 32 50000#32),
    unary main_c_23 main_v89 (broadcastInDim S1650000 ![] bcast_S_S1650000 : (⟨S_, .i32⟩ : BufTy).Contents (Elt F) → (⟨S1650000, .i32⟩ : BufTy).Contents (Elt F)),
    binary main_v5 main_v89 main_v90 (addi : (⟨S1650000, .i32⟩ : BufTy).Contents (Elt F) → (⟨S1650000, .i32⟩ : BufTy).Contents (Elt F) → (⟨S1650000, .i32⟩ : BufTy).Contents (Elt F)),
    ternary main_v88 main_v90 main_v5 main_v91 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v91 main_v92 (broadcastInDim S1650000x1 ![0] bcast_S1650000_S1650000x1_0 : (⟨S1650000, .i32⟩ : BufTy).Contents (Elt F) → (⟨S1650000x1, .i32⟩ : BufTy).Contents (Elt F)),
    binary main_v72 main_v92 main_v93 ((fun x i => Host.gather gather_S2x50000x64_S1650000x1_S2x1650000x64_02_1_n_n_1_1_2164 x i) : (⟨S2x50000x64, .f32⟩ : BufTy).Contents (Elt F) → (⟨S1650000x1, .i32⟩ : BufTy).Contents (Elt F) → (⟨S2x1650000x64, .f32⟩ : BufTy).Contents (Elt F)),
    unary main_v86 main_v94 (broadcastInDim S2x1650000x64 ![0, 1, 2] bcast_S2x1650000x1_S2x1650000x64_0_1_2 : (⟨S2x1650000x1, .f32⟩ : BufTy).Contents (Elt F) → (⟨S2x1650000x64, .f32⟩ : BufTy).Contents (Elt F)),
    binary main_v94 main_v93 main_v95 (mulf : (⟨S2x1650000x64, .f32⟩ : BufTy).Contents (Elt F) → (⟨S2x1650000x64, .f32⟩ : BufTy).Contents (Elt F) → (⟨S2x1650000x64, .f32⟩ : BufTy).Contents (Elt F)),
    binary main_v85 main_v95 main_v96 (addf : (⟨S2x1650000x64, .f32⟩ : BufTy).Contents (Elt F) → (⟨S2x1650000x64, .f32⟩ : BufTy).Contents (Elt F) → (⟨S2x1650000x64, .f32⟩ : BufTy).Contents (Elt F)),
    unary main_v73 main_v97 (broadcastInDim S2x1650000x64 ![0, 1, 2] bcast_S1x1650000x1_S2x1650000x64_0_1_2 : (⟨S1x1650000x1, .f32⟩ : BufTy).Contents (Elt F) → (⟨S2x1650000x64, .f32⟩ : BufTy).Contents (Elt F)),
    binary main_v97 main_v96 main_v98 (mulf : (⟨S2x1650000x64, .f32⟩ : BufTy).Contents (Elt F) → (⟨S2x1650000x64, .f32⟩ : BufTy).Contents (Elt F) → (⟨S2x1650000x64, .f32⟩ : BufTy).Contents (Elt F)),
    nullary main_cst_24 (constant S_ .f32 0x00000000#32),
    unary main_cst_24 main_v99 (broadcastInDim S2x50000x64 ![] bcast_S_S2x50000x64 : (⟨S_, .f32⟩ : BufTy).Contents (Elt F) → (⟨S2x50000x64, .f32⟩ : BufTy).Contents (Elt F)),
    nullary main_c_25 (constantI S_ 32 0#32),
    unary main_c_25 main_v100 (broadcastInDim S1650000 ![] bcast_S_S1650000 : (⟨S_, .i32⟩ : BufTy).Contents (Elt F) → (⟨S1650000, .i32⟩ : BufTy).Contents (Elt F)),
    binary main_v6 main_v100 main_v101 (cmpi .slt : (⟨S1650000, .i32⟩ : BufTy).Contents (Elt F) → (⟨S1650000, .i32⟩ : BufTy).Contents (Elt F) → (⟨S1650000, .i1⟩ : BufTy).Contents (Elt F)),
    nullary main_c_26 (constantI S_ 32 50000#32),
    unary main_c_26 main_v102 (broadcastInDim S1650000 ![] bcast_S_S1650000 : (⟨S_, .i32⟩ : BufTy).Contents (Elt F) → (⟨S1650000, .i32⟩ : BufTy).Contents (Elt F)),
    binary main_v6 main_v102 main_v103 (addi : (⟨S1650000, .i32⟩ : BufTy).Contents (Elt F) → (⟨S1650000, .i32⟩ : BufTy).Contents (Elt F) → (⟨S1650000, .i32⟩ : BufTy).Contents (Elt F)),
    ternary main_v101 main_v103 main_v6 main_v104 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v104 main_v105 (broadcastInDim S1650000x1 ![0] bcast_S1650000_S1650000x1_0 : (⟨S1650000, .i32⟩ : BufTy).Contents (Elt F) → (⟨S1650000x1, .i32⟩ : BufTy).Contents (Elt F)),
    ternary main_v99 main_v105 main_v98 main_v106 ((fun x i u => Host.scatterAdd scatter_S2x50000x64_S1650000x1_S2x1650000x64_02_1_1_1 x i u) : (⟨S2x50000x64, .f32⟩ : BufTy).Contents (Elt F) → (⟨S1650000x1, .i32⟩ : BufTy).Contents (Elt F) → (⟨S2x1650000x64, .f32⟩ : BufTy).Contents (Elt F) → (⟨S2x50000x64, .f32⟩ : BufTy).Contents (Elt F)),
    unary main_arg6 main_v107 (broadcastInDim S1x1x64 ![2] bcast_S64_S1x1x64_2 : (⟨S64, .f32⟩ : BufTy).Contents (Elt F) → (⟨S1x1x64, .f32⟩ : BufTy).Contents (Elt F)),
    unary main_v107 main_v108 (broadcastInDim S2x50000x64 ![0, 1, 2] bcast_S1x1x64_S2x50000x64_0_1_2 : (⟨S1x1x64, .f32⟩ : BufTy).Contents (Elt F) → (⟨S2x50000x64, .f32⟩ : BufTy).Contents (Elt F)),
    binary main_v106 main_v108 main_v109 (addf : (⟨S2x50000x64, .f32⟩ : BufTy).Contents (Elt F) → (⟨S2x50000x64, .f32⟩ : BufTy).Contents (Elt F) → (⟨S2x50000x64, .f32⟩ : BufTy).Contents (Elt F)) ]

set_option maxRecDepth 8192 in
set_option maxHeartbeats 4000000 in
/-- The reference program, on every device, is the straight line of these operations. -/
theorem main_eq (c : Dev nD) : main (F := F) c = seq ops := rfl
/-- No buffer of the reference program is scoped. -/
theorem scopedRefs_eq : (Finset.univ.filter fun b : Ref sig .tc => b.isScoped) = ∅ := by decide
/-- No semaphore of the reference program is scoped. -/
theorem scopedSems_eq : (Finset.univ.filter fun sm : SemLoc sig => sm.isScoped .tc) = ∅ := by decide
set_option maxRecDepth 8192 in
/-- Every operation reads and writes device buffers of the program's own signature only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., binary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩

end Cert.RefRun

end
-- ==== Proof.RefRunOut.lean ====
/-
  The reference program's result buffer is the specification's `out`.

  After the 141 operations, the contents of a buffer are the fold of the operations' results over the launch
  contents. Read at the result buffer, and with every lookup of an intermediate buffer rewritten to the result of the
  operation that wrote it, the fold is a composition of host operations over the seven argument arrays; the
  specification's stages are the same operations in the same order, so the two sides agree by unfolding.
-/
import proofs.«161792_j28492813041739_2_alg».proof.Proof.RefRunOps
import proofs.«161792_j28492813041739_2_alg».proof.Proof.EdgeSpec

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 32000000 in
/-- The fold of the reference program's operations, read at its result buffer, is the specification's `out` of the
    seven argument arrays as the launch finds them. -/
theorem after_out (m : (ℓ : Loc nD τ sig) → Buf (Elt Ideal) ℓ) (c : Dev nD) :
    after (ops (F := Ideal)) (launchContents m c) (Proc.devRef .tc main_v109) = Cert.EdgeSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  after_results_simp
  unfold Cert.EdgeSpec.out Cert.EdgeSpec.tail Cert.EdgeSpec.msg Cert.EdgeSpec.perEdge Cert.EdgeSpec.fFull Cert.EdgeSpec.fDisc Cert.EdgeSpec.keep Cert.EdgeSpec.fRow Cert.EdgeSpec.xw Cert.EdgeSpec.norm Cert.EdgeSpec.dis Cert.EdgeSpec.deg Cert.EdgeSpec.srcIdx Cert.EdgeSpec.tgtIdx Cert.EdgeSpec.wrapE Cert.EdgeSpec.wrapO Cert.EdgeSpec.withLoops Cert.EdgeSpec.row0 Cert.EdgeSpec.row1 catIdx catBlend
  rfl

end Cert.RefRun

end
-- ==== Proof.RefRunKept.lean ====
/-
  The reference program leaves its seven argument arrays as it found them: none of the 141 operations writes an
  argument buffer, so the fold of the operations' results, read at an argument, is the launch contents.
-/
import proofs.«161792_j28492813041739_2_alg».proof.Proof.RefRunOps
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- No operation of the reference program writes argument 0: after the line it holds what the launch found. -/
theorem kept_arg0 (m : (ℓ : Loc nD τ sig) → Buf (Elt Ideal) ℓ) (c : Dev nD) :
    after (ops (F := Ideal)) (launchContents m c) (Proc.devRef .tc main_arg0) = m ((c.tc : Thread nD τ).loc main_arg0) := by
  after_results_simp <;> rfl

set_option maxRecDepth 8192 in
set_option maxHeartbeats 4000000 in
/-- No operation of the reference program writes argument 1: after the line it holds what the launch found. -/
theorem kept_arg1 (m : (ℓ : Loc nD τ sig) → Buf (Elt Ideal) ℓ) (c : Dev nD) :
    after (ops (F := Ideal)) (launchContents m c) (Proc.devRef .tc main_arg1) = m ((c.tc : Thread nD τ).loc main_arg1) := by
  after_results_simp <;> rfl

set_option maxRecDepth 8192 in
set_option maxHeartbeats 4000000 in
/-- No operation of the reference program writes argument 2: after the line it holds what the launch found. -/
theorem kept_arg2 (m : (ℓ : Loc nD τ sig) → Buf (Elt Ideal) ℓ) (c : Dev nD) :
    after (ops (F := Ideal)) (launchContents m c) (Proc.devRef .tc main_arg2) = m ((c.tc : Thread nD τ).loc main_arg2) := by
  after_results_simp <;> rfl

set_option maxRecDepth 8192 in
set_option maxHeartbeats 4000000 in
/-- No operation of the reference program writes argument 3: after the line it holds what the launch found. -/
theorem kept_arg3 (m : (ℓ : Loc nD τ sig) → Buf (Elt Ideal) ℓ) (c : Dev nD) :
    after (ops (F := Ideal)) (launchContents m c) (Proc.devRef .tc main_arg3) = m ((c.tc : Thread nD τ).loc main_arg3) := by
  after_results_simp <;> rfl

set_option maxRecDepth 8192 in
set_option maxHeartbeats 4000000 in
/-- No operation of the reference program writes argument 4: after the line it holds what the launch found. -/
theorem kept_arg4 (m : (ℓ : Loc nD τ sig) → Buf (Elt Ideal) ℓ) (c : Dev nD) :
    after (ops (F := Ideal)) (launchContents m c) (Proc.devRef .tc main_arg4) = m ((c.tc : Thread nD τ).loc main_arg4) := by
  after_results_simp <;> rfl

set_option maxRecDepth 8192 in
set_option maxHeartbeats 4000000 in
/-- No operation of the reference program writes argument 5: after the line it holds what the launch found. -/
theorem kept_arg5 (m : (ℓ : Loc nD τ sig) → Buf (Elt Ideal) ℓ) (c : Dev nD) :
    after (ops (F := Ideal)) (launchContents m c) (Proc.devRef .tc main_arg5) = m ((c.tc : Thread nD τ).loc main_arg5) := by
  after_results_simp <;> rfl

set_option maxRecDepth 8192 in
set_option maxHeartbeats 4000000 in
/-- No operation of the reference program writes argument 6: after the line it holds what the launch found. -/
theorem kept_arg6 (m : (ℓ : Loc nD τ sig) → Buf (Elt Ideal) ℓ) (c : Dev nD) :
    after (ops (F := Ideal)) (launchContents m c) (Proc.devRef .tc main_arg6) = m ((c.tc : Thread nD τ).loc main_arg6) := by
  after_results_simp <;> rfl

end Cert.RefRun

end
-- ==== Proof.RefRun.lean ====
/-
  The reference program's run, read as the layer's specification.

  The reference program is a straight line of 141 host operations; every weakly fair execution of it terminates with
  each buffer at the fold of the operations' results over the launch contents. Read at the result buffer, that
  fold is the specification's `out` of the seven argument arrays — stage by stage the same host operations —,
  and the argument buffers are never written.
-/
import proofs.«161792_j28492813041739_2_alg».proof.Proof.RefRunOut
import proofs.«161792_j28492813041739_2_alg».proof.Proof.RefRunKept

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 8000000 in
/-- On every device, from any memory with zero counters: every weakly fair execution of the reference program
    terminates with its result buffer at the specification's `out` of the argument arrays, and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v109)
          = Cert.EdgeSpec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (Cert.ReferenceIdeal.defs (F := Ideal)) _ _).mono (fun _ h c => ⟨(h c main_v109).trans (after_out m c),
      (h c main_arg0).trans (kept_arg0 m c), (h c main_arg1).trans (kept_arg1 m c), (h c main_arg2).trans (kept_arg2 m c),
      (h c main_arg3).trans (kept_arg3 m c), (h c main_arg4).trans (kept_arg4 m c), (h c main_arg5).trans (kept_arg5 m c),
      (h c main_arg6).trans (kept_arg6 m c)⟩)
    (run_seq scopedRefs_eq scopedSems_eq (Cert.ReferenceIdeal.defs (F := Ideal)) (main (F := Ideal)) (fun _ => ops) main_eq (fun _ => ops_sub) m ρ)

end Cert.RefRun

end
-- ==== Proof.lean ====
/-
  One graph-convolution layer with a blended pair of weight matrices, computed two ways.

  With the self loops appended to the edge list, norm e the symmetric degree normalisation of edge e and f (b, e) its
  blend factor (both built from the edge list, the fluxes and the given edge strengths by the same host operations in
  the two programs), the plain program forms, per batch b, edge e and output feature o,
        msg (b, e, o) = norm e · ((1 − f) · (x · Wcᵀ)(b, src e, o) + f · (x · Wdᵀ)(b, src e, o)),
  adds the messages into their target nodes and adds the bias.  The kernel's program packs the two batches into 128 lanes,
  gathers the packed rows per edge, multiplies them by the block-diagonal matrices  I₂ ⊗ Wcᵀ,  I₂ ⊗ Wdᵀ  and by the
  coefficients  norm · (1 − f),  norm · f  folded per edge beforehand, block by block of 4096 edges, then unpacks and ends
  with the same segment sum and bias.  On the extended reals the two agree entry by entry: the block-diagonal product is
  the per-batch product (the foreign block meets the factor 0) and  (n·(1 − f))·c + (n·f)·d = n·((1 − f)·c + f·d);  both
  laws need real entries, which the finite float arguments give (norm and f are real by construction).
  The specification (EdgeSpec) states the layer once; each program's run is read as that function of its arguments.
-/
import proofs.«161792_j28492813041739_2_alg».proof.Defs
import proofs.«161792_j28492813041739_2_alg».proof.Proof.Gen.Kernel
import proofs.«161792_j28492813041739_2_alg».proof.Proof.Gen.Kernel.Skeleton
import proofs.«161792_j28492813041739_2_alg».proof.Proof.Gen.Kernel.Launch
import proofs.«161792_j28492813041739_2_alg».proof.Proof.Gen.Kernel.Points
import proofs.«161792_j28492813041739_2_alg».proof.Proof.Gen.Kernel.Frame
import proofs.«161792_j28492813041739_2_alg».proof.Proof.Gen.KernelIdeal
import proofs.«161792_j28492813041739_2_alg».proof.Proof.Gen.KernelIdeal.Skeleton
import proofs.«161792_j28492813041739_2_alg».proof.Proof.Gen.KernelIdeal.Launch
import proofs.«161792_j28492813041739_2_alg».proof.Proof.Gen.KernelIdeal.Points
import proofs.«161792_j28492813041739_2_alg».proof.Proof.Gen.KernelIdeal.Frame
import proofs.«161792_j28492813041739_2_alg».proof.Proof.Gen.ReferenceIdeal
import proofs.«161792_j28492813041739_2_alg».proof.Proof.Gen.Pre_finite_inputs
import proofs.«161792_j28492813041739_2_alg».proof.Proof.KernelValue
import proofs.«161792_j28492813041739_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame: its run with the result dropped. -/
theorem frame_ri : Cert.frame_ReferenceIdeal := fun m ρ _ =>
  (θ_run Cert.ReferenceIdeal.defs _ _).mono (fun _ h c => (h c).2) (Cert.RefRun.run m ρ)

/-- The idealized kernel program is the kernel program's own text: nothing was rewritten. -/
theorem preserves : Cert.preserves_Kernel_KernelIdeal := trivial

/-- Both programs end at the specification's output of their arguments, and the arguments agree. -/
theorem algebraic : Cert.algebraic_KernelIdeal_ReferenceIdeal := by
  intro m ρ m' ρ' hpre hagree
  refine ⟨fun c => Cert.EdgeSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Value.run m ρ hpre, ?_⟩
  refine (θ_run Cert.ReferenceIdeal.defs _ _).mono (fun _ h c => ⟨(h c).1.trans ?_, (h c).2⟩) (Cert.RefRun.run m' ρ')
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
